-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S2x256 : Shape := ⟨2, ![2, 256]⟩
abbrev S2 : Shape := ⟨1, ![2]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S2x256 : S_.BroadcastsInDim S2x256 (![] : Fin 0 → Fin S2x256.rank)
  reducesTo_S2x256_S_d0_1 : S2x256.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2x256 .f32) (main_arg6 : FVec F S2 .f32) (main_arg7 : FVec F S2x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S2x256 .f32 := Host.absf main_arg5
  let main_cst_6 : FVec F S_ .f32 := constant S_ .f32 0x7F800000#32
  let main_v20 : FVec F S2x256 .f32 := broadcastInDim S2x256 ![] bcast_S_S2x256 main_cst_6
  let main_v21 : IVec S2x256 1 := cmpf .olt main_v19 main_v20
  let main_c_7 : IVec S_ 1 := constantI S_ 1 1#1
  let main_v22 : IVec S_ 1 := (fun x v => Host.reduce IntOp.andi x v reducesTo_S2x256_S_d0_1 h_S_) main_v21 main_c_7
  let main_v23 : IVec S_ 1 := andi main_v18 main_v22
  let main_v24 : FVec F S2 .f32 := Host.absf main_arg6
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  let main_v29 : FVec F S2x256 .f32 := Host.absf main_arg7
  let main_cst_10 : FVec F S_ .f32 := constant S_ .f32 0x7F800000#32
  let main_v30 : FVec F S2x256 .f32 := broadcastInDim S2x256 ![] bcast_S_S2x256 main_cst_10
  let main_v31 : IVec S2x256 1 := cmpf .olt main_v29 main_v30
  let main_c_11 : IVec S_ 1 := constantI S_ 1 1#1
  let main_v32 : IVec S_ 1 := (fun x v => Host.reduce IntOp.andi x v reducesTo_S2x256_S_d0_1 h_S_) main_v31 main_c_11
  let main_v33 : IVec S_ 1 := andi main_v28 main_v32
  main_v33

def fn {F : FTy → Type} [FloatOps F] (main_arg0 : FVec F S50000x256 .f32) (main_arg1 : IVec S2x800000 32) (main_arg2 : FVec F S256x256 .f32) (main_arg3 : FVec F S256 .f32) (main_arg4 : FVec F S256x256 .f32) (main_arg5 : FVec F S2x256 .f32) (main_arg6 : FVec F S2 .f32) (main_arg7 : FVec F S2x256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S2x256 : Shape := ⟨2, ![2, 256]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x256 : Shape := ⟨2, ![800000, 256]⟩
abbrev S2000x256 : Shape := ⟨2, ![2000, 256]⟩
abbrev S1x256 : Shape := ⟨2, ![1, 256]⟩
abbrev S256x2 : Shape := ⟨2, ![256, 2]⟩
abbrev S256x128 : Shape := ⟨2, ![256, 128]⟩
abbrev S128 : Shape := ⟨1, ![128]⟩
abbrev S50000x2 : Shape := ⟨2, ![50000, 2]⟩
abbrev S2000x2 : Shape := ⟨2, ![2000, 2]⟩
abbrev S2000x128 : Shape := ⟨2, ![2000, 128]⟩
abbrev S1x128 : Shape := ⟨2, ![1, 128]⟩
abbrev S2000 : Shape := ⟨1, ![2000]⟩
abbrev S2000x1 : Shape := ⟨2, ![2000, 1]⟩

abbrev nBuf : Space → Nat
  | .hbm => 69
  | .vmem => 18
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S2x256, .f32⟩
  | .hbm, ⟨6, _⟩ => ⟨S2, .f32⟩
  | .hbm, ⟨7, _⟩ => ⟨S2x256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000x1, .f32⟩
  | .hbm, ⟨14, _⟩ => ⟨S_, .f32⟩
  | .hbm, ⟨15, _⟩ => ⟨S50000x1, .f32⟩
  | .hbm, ⟨16, _⟩ => ⟨S800000x1, .i32⟩
  | .hbm, ⟨17, _⟩ => ⟨S50000x1, .f32⟩
  | .hbm, ⟨18, _⟩ => ⟨S_, .f32⟩
  | .hbm, ⟨19, _⟩ => ⟨S50000x1, .f32⟩
  | .hbm, ⟨20, _⟩ => ⟨S50000x1, .f32⟩
  | .hbm, ⟨21, _⟩ => ⟨S_, .f32⟩
  | .hbm, ⟨22, _⟩ => ⟨S50000x1, .f32⟩
  | .hbm, ⟨23, _⟩ => ⟨S50000x1, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x256, .f32⟩
  | .hbm, ⟨33, _⟩ => ⟨S_, .f32⟩
  | .hbm, ⟨34, _⟩ => ⟨S50000x256, .f32⟩
  | .hbm, ⟨35, _⟩ => ⟨S800000x1, .i32⟩
  | .hbm, ⟨36, _⟩ => ⟨S50000x256, .f32⟩
  | .hbm, ⟨37, _⟩ => ⟨S50000x256, .f32⟩
  | .hbm, ⟨38, _⟩ => ⟨S50000x256, .f32⟩
  | .hbm, ⟨39, _⟩ => ⟨S256x256, .f32⟩
  | .hbm, ⟨40, _⟩ => ⟨S256x256, .f32⟩
  | .hbm, ⟨41, _⟩ => ⟨S50000x256, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x256, .f32⟩
  | .hbm, ⟨51, _⟩ => ⟨S_, .f32⟩
  | .hbm, ⟨52, _⟩ => ⟨S50000x256, .f32⟩
  | .hbm, ⟨53, _⟩ => ⟨S800000x1, .i32⟩
  | .hbm, ⟨54, _⟩ => ⟨S50000x256, .f32⟩
  | .hbm, ⟨55, _⟩ => ⟨S50000x256, .f32⟩
  | .hbm, ⟨56, _⟩ => ⟨S50000x256, .f32⟩
  | .hbm, ⟨57, _⟩ => ⟨S256x2, .f32⟩
  | .hbm, ⟨58, _⟩ => ⟨S256x2, .f32⟩
  | .hbm, ⟨59, _⟩ => ⟨S_, .i32⟩
  | .hbm, ⟨60, _⟩ => ⟨S_, .f32⟩
  | .hbm, ⟨61, _⟩ => ⟨S256x128, .f32⟩
  | .hbm, ⟨62, _⟩ => ⟨S_, .i32⟩
  | .hbm, ⟨63, _⟩ => ⟨S_, .f32⟩
  | .hbm, ⟨64, _⟩ => ⟨S256x128, .f32⟩
  | .hbm, ⟨65, _⟩ => ⟨S_, .i32⟩
  | .hbm, ⟨66, _⟩ => ⟨S_, .f32⟩
  | .hbm, ⟨67, _⟩ => ⟨S128, .f32⟩
  | .hbm, ⟨68, _⟩ => ⟨S50000x2, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .f32⟩
  | .local _ .vmem, ⟨5, _⟩ => ⟨S256, .f32⟩
  | .local _ .vmem, ⟨6, _⟩ => ⟨S256x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x128, .f32⟩
  | .local _ .vmem, ⟨14, _⟩ => ⟨S128, .f32⟩
  | .local _ .vmem, ⟨15, _⟩ => ⟨S256x128, .f32⟩
  | .local _ .vmem, ⟨16, _⟩ => ⟨S2000x2, .f32⟩
  | .local _ .vmem, ⟨17, _⟩ => ⟨S2000x2, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_8 : Ref sig .tc := ⟨.hbm, 59, rfl⟩
abbrev main_call0_v0 : Ref sig .tc := ⟨.hbm, 60, rfl⟩
abbrev main_v41 : Ref sig .tc := ⟨.hbm, 61, rfl⟩
abbrev main_c_9 : Ref sig .tc := ⟨.hbm, 62, rfl⟩
abbrev main_call1_v0 : Ref sig .tc := ⟨.hbm, 63, rfl⟩
abbrev main_v42 : Ref sig .tc := ⟨.hbm, 64, rfl⟩
abbrev main_c_10 : Ref sig .tc := ⟨.hbm, 65, rfl⟩
abbrev main_call2_v0 : Ref sig .tc := ⟨.hbm, 66, rfl⟩
abbrev main_v43 : Ref sig .tc := ⟨.hbm, 67, rfl⟩
abbrev main_v44 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x2 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000x1 : S_.BroadcastsInDim S800000x1 (![] : Fin 0 → Fin S800000x1.rank)
  bcast_S_S50000x1 : S_.BroadcastsInDim S50000x1 (![] : Fin 0 → Fin S50000x1.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S256x256_S256x256_1_0 : S256x256.Transposes [1, 0] S256x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  transposes_S2x256_S256x2_1_0 : S2x256.Transposes [1, 0] S256x2
  pads_S256x2_S256x128_000_01260 : S256x2.Pads (![0, 0] : Fin 2 → Nat) ![0, 126] ![0, 0] S256x128
  h_S_ : 0 < S_.numel
  pads_S2_S128_01260 : S2.Pads (![0] : Fin 1 → Nat) ![126] ![0] S128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S2000x128 : S1x128.Broadcasts S2000x128
  slices_S2000x128_o0_0_S2000x2 : S2000x128.Slices ![0, 0] S2000x2
  reduces_S2000x2_S2000 : S2000x2.Reduces [1] S2000
  shapeCasts_S2000_S2000x1 : S2000.ShapeCasts S2000x1
  broadcasts_S2000x1_S2000x2 : S2000x1.Broadcasts S2000x2
  inb_S2000x2_S2000x2_0_0 : ∀ a, (![0, 0] : Fin 2 → Nat) a + S2000x2.size a ≤ S2000x2.size a
  h_S2000x2 : 0 < S2000x2.numel
  scatter_S50000x1_S800000x1_S800000x1_1_0_0_1_wf : ScatterDims.WF S50000x1 S800000x1 S800000x1 [1] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x2.size a ≤ S50000x2.size a
  hwx1_5 : ∀ i : grid1.Coords, EltTy.bits .f32 = 32 ∨ (Rect.block (s := S50000x2) S2000x2.size (cc1_transform_5 i) (hinb1_5 i)).WholeWords (EltTy.packing .f32)

variable [Facts₀]

def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v23) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S2000x2.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S2x256 : Shape := ⟨2, ![2, 256]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S50000x1 : Shape := ⟨2, ![50000, 1]⟩
abbrev S1x256 : Shape := ⟨2, ![1, 256]⟩
abbrev S256x2 : Shape := ⟨2, ![256, 2]⟩
abbrev S50000x2 : Shape := ⟨2, ![50000, 2]⟩
abbrev S1x2 : Shape := ⟨2, ![1, 2]⟩
abbrev S50000 : Shape := ⟨1, ![50000]⟩

abbrev nBuf : Space → Nat
  | .hbm => 94
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S2x256, .f32⟩
  | .hbm, ⟨6, _⟩ => ⟨S2, .f32⟩
  | .hbm, ⟨7, _⟩ => ⟨S2x256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x256, .f32⟩
  | .hbm, ⟨21, _⟩ => ⟨S_, .f32⟩
  | .hbm, ⟨22, _⟩ => ⟨S50000x256, .f32⟩
  | .hbm, ⟨23, _⟩ => ⟨S800000x1, .i32⟩
  | .hbm, ⟨24, _⟩ => ⟨S50000x256, .f32⟩
  | .hbm, ⟨25, _⟩ => ⟨S_, .f32⟩
  | .hbm, ⟨26, _⟩ => ⟨S800000x1, .f32⟩
  | .hbm, ⟨27, _⟩ => ⟨S_, .f32⟩
  | .hbm, ⟨28, _⟩ => ⟨S50000x1, .f32⟩
  | .hbm, ⟨29, _⟩ => ⟨S800000x1, .i32⟩
  | .hbm, ⟨30, _⟩ => ⟨S50000x1, .f32⟩
  | .hbm, ⟨31, _⟩ => ⟨S_, .f32⟩
  | .hbm, ⟨32, _⟩ => ⟨S50000x1, .f32⟩
  | .hbm, ⟨33, _⟩ => ⟨S50000x1, .f32⟩
  | .hbm, ⟨34, _⟩ => ⟨S50000x256, .f32⟩
  | .hbm, ⟨35, _⟩ => ⟨S50000x256, .f32⟩
  | .hbm, ⟨36, _⟩ => ⟨S256x256, .f32⟩
  | .hbm, ⟨37, _⟩ => ⟨S50000x256, .f32⟩
  | .hbm, ⟨38, _⟩ => ⟨S1x256, .f32⟩
  | .hbm, ⟨39, _⟩ => ⟨S50000x256, .f32⟩
  | .hbm, ⟨40, _⟩ => ⟨S50000x256, .f32⟩
  | .hbm, ⟨41, _⟩ => ⟨S256x256, .f32⟩
  | .hbm, ⟨42, _⟩ => ⟨S50000x256, .f32⟩
  | .hbm, ⟨43, _⟩ => ⟨S50000x256, .f32⟩
  | .hbm, ⟨44, _⟩ => ⟨S_, .f32⟩
  | .hbm, ⟨45, _⟩ => ⟨S50000x256, .f32⟩
  | .hbm, ⟨46, _⟩ => ⟨S50000x256, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x256, .f32⟩
  | .hbm, ⟨56, _⟩ => ⟨S_, .f32⟩
  | .hbm, ⟨57, _⟩ => ⟨S50000x256, .f32⟩
  | .hbm, ⟨58, _⟩ => ⟨S800000x1, .i32⟩
  | .hbm, ⟨59, _⟩ => ⟨S50000x256, .f32⟩
  | .hbm, ⟨60, _⟩ => ⟨S_, .f32⟩
  | .hbm, ⟨61, _⟩ => ⟨S800000x1, .f32⟩
  | .hbm, ⟨62, _⟩ => ⟨S_, .f32⟩
  | .hbm, ⟨63, _⟩ => ⟨S50000x1, .f32⟩
  | .hbm, ⟨64, _⟩ => ⟨S800000x1, .i32⟩
  | .hbm, ⟨65, _⟩ => ⟨S50000x1, .f32⟩
  | .hbm, ⟨66, _⟩ => ⟨S_, .f32⟩
  | .hbm, ⟨67, _⟩ => ⟨S50000x1, .f32⟩
  | .hbm, ⟨68, _⟩ => ⟨S50000x1, .f32⟩
  | .hbm, ⟨69, _⟩ => ⟨S50000x256, .f32⟩
  | .hbm, ⟨70, _⟩ => ⟨S50000x256, .f32⟩
  | .hbm, ⟨71, _⟩ => ⟨S256x2, .f32⟩
  | .hbm, ⟨72, _⟩ => ⟨S50000x2, .f32⟩
  | .hbm, ⟨73, _⟩ => ⟨S1x2, .f32⟩
  | .hbm, ⟨74, _⟩ => ⟨S50000x2, .f32⟩
  | .hbm, ⟨75, _⟩ => ⟨S50000x2, .f32⟩
  | .hbm, ⟨76, _⟩ => ⟨S256x2, .f32⟩
  | .hbm, ⟨77, _⟩ => ⟨S50000x2, .f32⟩
  | .hbm, ⟨78, _⟩ => ⟨S50000x2, .f32⟩
  | .hbm, ⟨79, _⟩ => ⟨S_, .f32⟩
  | .hbm, ⟨80, _⟩ => ⟨S50000, .f32⟩
  | .hbm, ⟨81, _⟩ => ⟨S_, .f32⟩
  | .hbm, ⟨82, _⟩ => ⟨S50000, .f32⟩
  | .hbm, ⟨83, _⟩ => ⟨S50000, .f32⟩
  | .hbm, ⟨84, _⟩ => ⟨S50000x1, .f32⟩
  | .hbm, ⟨85, _⟩ => ⟨S50000x2, .f32⟩
  | .hbm, ⟨86, _⟩ => ⟨S50000x2, .f32⟩
  | .hbm, ⟨87, _⟩ => ⟨S50000x2, .f32⟩
  | .hbm, ⟨88, _⟩ => ⟨S_, .f32⟩
  | .hbm, ⟨89, _⟩ => ⟨S50000, .f32⟩
  | .hbm, ⟨90, _⟩ => ⟨S50000x1, .f32⟩
  | .hbm, ⟨91, _⟩ => ⟨S50000x1, .f32⟩
  | .hbm, ⟨92, _⟩ => ⟨S50000x2, .f32⟩
  | .hbm, ⟨93, _⟩ => ⟨S50000x2, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_cst : Ref sig .tc := ⟨.hbm, 44, rfl⟩
abbrev main_call0_v0 : Ref sig .tc := ⟨.hbm, 45, rfl⟩
abbrev main_v30 : Ref sig .tc := ⟨.hbm, 46, rfl⟩
abbrev main_c_4 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_call1_cst : Ref sig .tc := ⟨.hbm, 79, rfl⟩
abbrev main_call1_v0 : Ref sig .tc := ⟨.hbm, 80, rfl⟩
abbrev main_call1_cst_0 : Ref sig .tc := ⟨.hbm, 81, rfl⟩
abbrev main_call1_v1 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_call1_v5 : Ref sig .tc := ⟨.hbm, 86, rfl⟩
abbrev main_call1_v6 : Ref sig .tc := ⟨.hbm, 87, rfl⟩
abbrev main_call1_cst_1 : Ref sig .tc := ⟨.hbm, 88, rfl⟩
abbrev main_call1_v7 : Ref sig .tc := ⟨.hbm, 89, rfl⟩
abbrev main_call1_v8 : Ref sig .tc := ⟨.hbm, 90, rfl⟩
abbrev main_call1_v9 : Ref sig .tc := ⟨.hbm, 91, rfl⟩
abbrev main_call1_v10 : Ref sig .tc := ⟨.hbm, 92, rfl⟩
abbrev main_v57 : Ref sig .tc := ⟨.hbm, 93, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  transposes_S256x256_S256x256_1_0 : S256x256.Transposes [1, 0] S256x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  transposes_S2x256_S256x2_1_0 : S2x256.Transposes [1, 0] S256x2
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  reducesTo_S50000x2_S50000_d1 : S50000x2.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x2_0_1 : S50000x1.BroadcastsInDim S50000x2 (![0, 1] : Fin 2 → Fin S50000x2.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000x1_S800000x1_S800000x1_1_0_0_1_wf : ScatterDims.WF S50000x1 S800000x1 S800000x1 [1] [0] [0] 1
  dot_S50000x256_S256x256_S50000x256_1_0_0_1_n_n_wf : DotDims.WF S50000x256 S256x256 S50000x256 [1] [0] [0] [1] [] []
  dot_S50000x256_S256x2_S50000x2_1_0_0_1_n_n_wf : DotDims.WF S50000x256 S256x2 S50000x2 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x2_S50000x2_1_0_0_1_n_n : DotDims S50000x256 S256x2 S50000x2 where
  lhsContracting := [1]
  rhsContracting := [0]
  lhsNonContracting := [0]
  rhsNonContracting := [1]
  lhsBatch := []
  rhsBatch := []
  wf := dot_S50000x256_S256x2_S50000x2_1_0_0_1_n_n_wf

class Facts : Prop extends Facts₀ where

variable [Facts]
-- ==== Proof.KernelRun.lean ====
/-
  The idealized kernel's run, with its result named.

  @main is nine segments: a stretch of host operations, the first pallas_call (layer 1), six stretches of host
  operations, the second pallas_call (layer 2). Every weakly fair execution passes through them in order and ends
  with each unscoped buffer of a core at the contents the fold through the segments leaves (`W9`): a host stretch
  applies its operations to the contents before it, a region replaces its windows' arrays by what its write-backs
  leave. The frame reads the eight argument arrays off that final state; here the result buffer `main_v44` is read
  off it as well, so the run's post says what the result IS: the fold's contents at `main_v44`.
-/
import proofs.«180262_j20581483282517_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the fold's final
    contents `W9` at `main_v44`, and the argument arrays end as launched. -/
theorem run_result : θ_run defs (onTc (τ := τ) (main (F := F))) ⟨m, fun _ => 0, ρ⟩ (fun r => ∀ c : Dev nD,
      r.2.mem ((c.tc : Thread nD τ).loc main_v44) = W9 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v44 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.RunValue

end
-- ==== Proof.Layer1Body.lean ====
/-
  The first layer's kernel body read at one index, at the ideal values: the rectified sum of two
  row-by-column products and a bias.
-/
import proofs.«180262_j20581483282517_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx

/-! ## The contraction's operand indices, by coordinates -/

/-- The left operand's index keeps the output's row … -/
theorem lhs256_0 (j : S2000x256.Idx) (k : dot_S2000x256_S256x256_S2000x256_1_0_0_1_n_n.contr.Idx) :
    (dot_S2000x256_S256x256_S2000x256_1_0_0_1_n_n.lhsIdx j k 0).val = (j 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl
/-- … and its column is the contraction's coordinate. -/
theorem lhs256_1 (j : S2000x256.Idx) (k : dot_S2000x256_S256x256_S2000x256_1_0_0_1_n_n.contr.Idx) :
    (dot_S2000x256_S256x256_S2000x256_1_0_0_1_n_n.lhsIdx j k 1).val = (k ⟨0, by decide⟩).val :=
  dot_S2000x256_S256x256_S2000x256_1_0_0_1_n_n.lhsIdx_val_of_single rfl j k
/-- The right operand's row is the contraction's coordinate … -/
theorem rhs256_0 (j : S2000x256.Idx) (k : dot_S2000x256_S256x256_S2000x256_1_0_0_1_n_n.contr.Idx) :
    (dot_S2000x256_S256x256_S2000x256_1_0_0_1_n_n.rhsIdx j k 0).val = (k ⟨0, by decide⟩).val :=
  dot_S2000x256_S256x256_S2000x256_1_0_0_1_n_n.rhsIdx_val_of_single rfl j k
/-- … and its column is the output's. -/
theorem rhs256_1 (j : S2000x256.Idx) (k : dot_S2000x256_S256x256_S2000x256_1_0_0_1_n_n.contr.Idx) :
    (dot_S2000x256_S256x256_S2000x256_1_0_0_1_n_n.rhsIdx j k 1).val = (j 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- A [2000,256] by [256,256] product accumulated into zero, at (p, q): row p times column q. -/
theorem matmul256_apply {φ₁ φ₂ : FTy} (l : FVec Ideal S2000x256 φ₁) (r : FVec Ideal S256x256 φ₂) (p : Fin 2000) (q : Fin 256) :
    FloatOps.matmul dot_S2000x256_S256x256_S2000x256_1_0_0_1_n_n none l r (constant (F := Ideal) S2000x256 .f32 0x00000000#32) (ix2 p q)
      = ∑ k : Fin 256, l (ix2 p k) * r (ix2 k q) := by
  rw [Ideal.matmul_constant_zero_apply,
    ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q)
      ((contrEquiv1 dot_S2000x256_S256x256_S2000x256_1_0_0_1_n_n 256 rfl rfl).symm k) = ix2 p k :=
    funext fun a => Fin.ext (by
      match a with
      | ⟨0, _⟩ => exact lhs256_0 _ _
      | ⟨1, _⟩ => exact (lhs256_1 _ _).trans hk)
  have er : dot_S2000x256_S256x256_S2000x256_1_0_0_1_n_n.rhsIdx (ix2 p q)
      ((contrEquiv1 dot_S2000x256_S256x256_S2000x256_1_0_0_1_n_n 256 rfl rfl).symm k) = ix2 k q :=
    funext fun a => Fin.ext (by
      match a with
      | ⟨0, _⟩ => exact (rhs256_0 _ _).trans hk
      | ⟨1, _⟩ => exact rhs256_1 _ _)
  rw [el, er]

/-! ## The body at an index -/

/-- The first layer's stored value at (p, q): row p of `a` times column q of `wl`, plus the bias at q, plus row p of
    `x` times column q of `wr`, cut off below at zero. The shape casts are to the same shape and the narrowing to
    bf16 is the identity on extended reals, so the operands of both products are the loaded vectors themselves. -/
theorem pay0_apply (a x : Vec Ideal S2000x256 .f32) (wl wr : Vec Ideal S256x256 .f32) (b : Vec Ideal S256 .f32) (p : Fin 2000) (q : Fin 256) :
    k0_pay1 (F := Ideal) a x wl wr b (ix2 p q)
      = max ((∑ k : Fin 256, a (ix2 p k) * wl (ix2 k q)) + b (ix1 q) + ∑ k : Fin 256, x (ix2 p k) * wr (ix2 k q)) 0 := by
  unfold k0_pay1
  simp only [shapeCast_self]
  show max
      (FloatOps.matmul dot_S2000x256_S256x256_S2000x256_1_0_0_1_n_n none
          (truncf (F := Ideal) .bf16 a bitsLt_bf16_f32) (truncf (F := Ideal) .bf16 wl bitsLt_bf16_f32)
          (constant (F := Ideal) S2000x256 .f32 0x00000000#32) (ix2 p q)
        + broadcastTo S2000x256 (shapeCast S1x256 b shapeCasts_S256_S1x256) broadcasts_S1x256_S2000x256 (ix2 p q)
        + FloatOps.matmul dot_S2000x256_S256x256_S2000x256_1_0_0_1_n_n none
          (truncf (F := Ideal) .bf16 x bitsLt_bf16_f32) (truncf (F := Ideal) .bf16 wr bitsLt_bf16_f32)
          (constant (F := Ideal) S2000x256 .f32 0x00000000#32) (ix2 p q))
      (Ideal.ofBits .f32 0x00000000#32) = _
  rw [matmul256_apply, matmul256_apply, broadcastTo_1b_ab_apply, shapeCast_a_1a_apply, Ideal.ofBits_zero_f32]
  rfl

end Cert.KernelIdeal.BodyValue

end
-- ==== Proof.Spec.lean ====
/-
  The function both programs compute, on whole arrays of extended reals.

  A two-layer mean-aggregation network over N = 50000 nodes with 256 features. Given the aggregate A (each node's
  mean over its incoming edges, however it was formed) and the features X, layer 1 is
      hidden[r, q] = max(Σₖ A[r,k]·Tl[k,q] + b[q] + Σₖ X[r,k]·Tr[k,q], 0)
  with Tl, Tr the transposed weight matrices. Layer 2 forms two logits per node the same way from the aggregate of
  the hidden features and the hidden features, and returns their log-softmax: each logit minus the larger one, minus
  the logarithm of the sum of the exponentials of those differences.
-/
import Idealize.ShloMosaic.Lib.ValueIdx
import Idealize.ShloMosaic.PureOps.Ideal

noncomputable section

open scoped BigOperators

namespace Cert.Spec

open Idealize.ShloMosaic Idealize.ShloMosaic.ValueIdx

/-- The shapes, literally. -/
abbrev Nodes256 : Shape := ⟨2, ![50000, 256]⟩
abbrev Sq256 : Shape := ⟨2, ![256, 256]⟩
abbrev Row256 : Shape := ⟨1, ![256]⟩
abbrev Nodes2 : Shape := ⟨2, ![50000, 2]⟩
abbrev Cols2 : Shape := ⟨2, ![256, 2]⟩
abbrev Row2 : Shape := ⟨1, ![2]⟩

/-- Layer 1: entry (r, q) is the rectified sum of row r of `A` times column q of `Tl`, the bias at q, and row r of
    `X` times column q of `Tr`. -/
def hidden (A X : Nodes256.Idx → EReal) (Tl Tr : Sq256.Idx → EReal) (b : Row256.Idx → EReal) : Nodes256.Idx → EReal :=
  fun i => max ((∑ k : Fin 256, A (ix2 (i 0) k) * Tl (ix2 k (i 1))) + b (ix1 (i 1))
    + ∑ k : Fin 256, X (ix2 (i 0) k) * Tr (ix2 k (i 1))) 0

/-- The log-softmax of a pair: subtract the pair's maximum (a fold of max from -∞), then the logarithm of the sum
    of the exponentials. -/
def logSoftmax2 (lg : Fin 2 → EReal) (q : Fin 2) : EReal :=
  (lg q - (Finset.univ : Finset (Fin 2)).fold max ⊥ lg)
    - Ideal.log (∑ j : Fin 2, Ideal.exp (lg j - (Finset.univ : Finset (Fin 2)).fold max ⊥ lg))

/-- One logit of layer 2 at node r, class j. -/
def logit (A H : Nodes256.Idx → EReal) (Tl Tr : Cols2.Idx → EReal) (b : Row2.Idx → EReal) (r : Fin 50000) (j : Fin 2) : EReal :=
  (∑ k : Fin 256, A (ix2 r k) * Tl (ix2 k j)) + b (ix1 j) + ∑ k : Fin 256, H (ix2 r k) * Tr (ix2 k j)

/-- Layer 2: the log-softmax over the two classes of each node's logits. -/
def scores (A H : Nodes256.Idx → EReal) (Tl Tr : Cols2.Idx → EReal) (b : Row2.Idx → EReal) : Nodes2.Idx → EReal :=
  fun i => logSoftmax2 (fun j => logit A H Tl Tr b (i 0) j) (i 1)

end Cert.Spec

end
-- ==== Proof.Layer1Array.lean ====
/-
  Layer 1 as ONE function of whole arrays.

  The first pallas_call runs over 25 grid points; at point t it reads rows 2000·t … 2000·t+1999 of the aggregate
  and of the features (windows 0 and 1), the two 256×256 weight matrices and the bias whole (windows 2, 4 and 3),
  and writes rows 2000·t … 2000·t+1999 of its output (window 5). What it stores at row p, column q of its block
  is max(Σₖ A[r,k]·Tl[k,q] + b[q] + Σₖ X[r,k]·Tr[k,q], 0) with r = 2000·t + p: entry (r, q) of `hidden` below, a
  function of the arrays as the region finds them. The 25 blocks tile the 50000 rows, so after the region the output
  array IS `hidden` of the region's input arrays.
-/
import proofs.«180262_j20581483282517_1_alg».proof.Proof.Gen.KernelIdeal.Frame
import proofs.«180262_j20581483282517_1_alg».proof.Proof.Layer1Body
import proofs.«180262_j20581483282517_1_alg».proof.Proof.Spec
import Idealize.ShloMosaic.Lib.Pipeline.Value

set_option maxRecDepth 16384

noncomputable section

open scoped BigOperators

namespace Cert.KernelIdeal.ArrayValue

open Cert.KernelIdeal Cert.KernelIdeal.Gen Cert.KernelIdeal.BodyValue
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The printed index maps over the grid: the row-blocked windows move together, the whole-array windows stay at
    block 0, and the output's row block stays below 25. -/
theorem index_facts0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (1 : Fin 2) = 0 ∧ win0_5.index t (0 : Fin 2) ≤ 24 :=
  (by decide +kernel : ∀ t : Fin grid0.N, _)

/-- Every row block is some point's. -/
theorem index_onto0 : ∀ q0 : Fin 25, ∃ t : Fin cfg0.N, win0_5.index t = ![q0.val, 0] :=
  (by decide +kernel : ∀ q0 : Fin 25, ∃ t : Fin grid0.N, win0_5.index t = ![q0.val, 0])

/-- What point `t` writes back is block `t` of `hidden` of the arrays as the region finds them. -/
theorem flushed0_eq (c : Dev nD) (t : Fin cfg0.N) :
    (dat0 V c).flushed 5 t = ((cfg0.win 5).blk t).view.read (Elt Ideal)
      (Cert.Spec.hidden (V c main_v23) (V c main_arg0) (V c main_v24) (V c main_v25) (V c main_arg3)) := by
  show (cfg0.win 5).cut (grid0.coords t) ((dat0 V c).after 5 t) = _
  rw [after0_5]
  unfold out0_5
  rw [View.canon_unit_zero zero2]
  simp only [View.ld_unit_zero (S := S2000x256) zero2, View.ld_unit_zero (S := S256x256) zero2,
    View.ld_unit_zero (S := S256) zero1]
  obtain ⟨e00, e01, e10, e11, e20, e21, e30, e40, e41, e51, e5b⟩ := index_facts0 t
  funext j
  obtain ⟨p, q, rfl⟩ : ∃ (p : Fin 2000) (q : Fin 256), j = ix2 p q := ⟨j 0, j 1, eq_ix2 j⟩
  refine (pay0_apply (iblk0 V c 0 t) (iblk0 V c 1 t) (iblk0 V c 2 t) (iblk0 V c 4 t) (iblk0 V c 3 t) p q).trans ?_
  -- the array index of the block's entry (p, q): row 2000·t + p, column q
  have hE0 : ((((cfg0.win 5).blk t).view.emb (ix2 p q)) 0).val = win0_5.index t (0 : Fin 2) * 2000 + 1 * p.val := rfl
  have hE1 : ((((cfg0.win 5).blk t).view.emb (ix2 p q)) 1).val = win0_5.index t (1 : Fin 2) * 256 + 1 * q.val := rfl
  -- each input block, read where the output's rectangle says
  have h0 : ∀ k : Fin 256, iblk0 V c 0 t (ix2 p k)
      = V c main_v23 (ix2 ((((cfg0.win 5).blk t).view.emb (ix2 p q)) 0) k : S50000x256.Idx) := fun k => by
    show V c main_v23 (((cfg0.win 0).blk t).view.emb (ix2 p k)) = _
    refine congrArg _ (funext fun a => Fin.ext ?_)
    match a with
    | ⟨0, _⟩ => show win0_0.index t (0 : Fin 2) * 2000 + 1 * p.val = _; rw [hE0]; omega
    | ⟨1, _⟩ => show win0_0.index t (1 : Fin 2) * 256 + 1 * k.val = k.val; omega
  have h1 : ∀ k : Fin 256, iblk0 V c 1 t (ix2 p k)
      = V c main_arg0 (ix2 ((((cfg0.win 5).blk t).view.emb (ix2 p q)) 0) k : S50000x256.Idx) := fun k => by
    show V c main_arg0 (((cfg0.win 1).blk t).view.emb (ix2 p k)) = _
    refine congrArg _ (funext fun a => Fin.ext ?_)
    match a with
    | ⟨0, _⟩ => show win0_1.index t (0 : Fin 2) * 2000 + 1 * p.val = _; rw [hE0]; omega
    | ⟨1, _⟩ => show win0_1.index t (1 : Fin 2) * 256 + 1 * k.val = k.val; omega
  have h2 : ∀ k : Fin 256, iblk0 V c 2 t (ix2 k q)
      = V c main_v24 (ix2 k ((((cfg0.win 5).blk t).view.emb (ix2 p q)) 1) : S256x256.Idx) := fun k => by
    show V c main_v24 (((cfg0.win 2).blk t).view.emb (ix2 k q)) = _
    refine congrArg _ (funext fun a => Fin.ext ?_)
    match a with
    | ⟨0, _⟩ => show win0_2.index t (0 : Fin 2) * 256 + 1 * k.val = k.val; omega
    | ⟨1, _⟩ => show win0_2.index t (1 : Fin 2) * 256 + 1 * q.val = _; rw [hE1]; omega
  have h4 : ∀ k : Fin 256, iblk0 V c 4 t (ix2 k q)
      = V c main_v25 (ix2 k ((((cfg0.win 5).blk t).view.emb (ix2 p q)) 1) : S256x256.Idx) := fun k => by
    show V c main_v25 (((cfg0.win 4).blk t).view.emb (ix2 k q)) = _
    refine congrArg _ (funext fun a => Fin.ext ?_)
    match a with
    | ⟨0, _⟩ => show win0_4.index t (0 : Fin 2) * 256 + 1 * k.val = k.val; omega
    | ⟨1, _⟩ => show win0_4.index t (1 : Fin 2) * 256 + 1 * q.val = _; rw [hE1]; omega
  have h3 : iblk0 V c 3 t (ix1 q)
      = V c main_arg3 (ix1 ((((cfg0.win 5).blk t).view.emb (ix2 p q)) 1) : S256.Idx) := by
    show V c main_arg3 (((cfg0.win 3).blk t).view.emb (ix1 q)) = _
    refine congrArg _ (funext fun a => Fin.ext ?_)
    match a with
    | ⟨0, _⟩ => show win0_3.index t (0 : Fin 1) * 256 + 1 * q.val = _; rw [hE1]; omega
  simp only [h0, h1, h2, h3, h4]
  rfl

/-- An index of the output array is in point `t`'s block iff each coordinate is in the block's range on its axis. -/
theorem mem_block0 (t : Fin cfg0.N) (i : S50000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v26).slice (win0_5.rect t)).set ↔ _
  rw [View.set_slice_whole, Rect.mem_set_unit]
  exact Iff.rfl

/-- The 25 row blocks cover the array: row r lies in the block of point r / 2000. -/
theorem cover0 (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  obtain ⟨t, ht⟩ := index_onto0 ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_block0]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

/-- After the first region its output array is layer 1 of the arrays the region found. -/
theorem hidden_array (c : Dev nD) :
    (dat0 V c).arrAt 5 cfg0.N
      = Cert.Spec.hidden (V c main_v23) (V c main_arg0) (V c main_v24) (V c main_v25) (V c main_arg3) :=
  (dat0 V c).arrAt_eq_of_cover 5 _ (fun t _ => flushed0_eq V c t) cover0

end Cert.KernelIdeal.ArrayValue

end
-- ==== Proof.Layer2Body.lean ====
/-
  The second layer's kernel body read at one index, at the ideal values: the log-softmax, over the first two
  lanes, of the sum of two row-by-column products and a bias.
-/
import proofs.«180262_j20581483282517_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx

/-! ## What the body computes -/

/-- One logit: row p of a times column j of wl, plus the bias, plus row p of x times column j of wr. -/
def logit2 (a x : Vec Ideal S2000x256 .f32) (wl wr : Vec Ideal S256x128 .f32) (b : Vec Ideal S128 .f32) (p : Fin 2000) (j : Fin 128) : EReal :=
  (∑ k : Fin 256, a (ix2 p k) * wl (ix2 k j)) + b (ix1 j) + ∑ k : Fin 256, x (ix2 p k) * wr (ix2 k j)

/-- The log-softmax of a pair, as the body computes it: subtract the pair's maximum (a fold of max from -inf), then the log of the sum of exponentials. -/
def logSoftmax2 (lg : Fin 2 → EReal) (q : Fin 2) : EReal :=
  (lg q - (Finset.univ : Finset (Fin 2)).fold max ⊥ lg) - Ideal.log (∑ j : Fin 2, Ideal.exp (lg j - (Finset.univ : Finset (Fin 2)).fold max ⊥ lg))

/-! ## The contraction's operand indices, by coordinates -/

/-- The left operand's index keeps the output's row … -/
theorem lhs128_0 (j : S2000x128.Idx) (k : dot_S2000x256_S256x128_S2000x128_1_0_0_1_n_n.contr.Idx) :
    (dot_S2000x256_S256x128_S2000x128_1_0_0_1_n_n.lhsIdx j k 0).val = (j 0).val := by
  unfold DotDims.lhsIdx
  rw [dif_neg (show ¬(0 : Fin S2000x256.rank) ∈ dot_S2000x256_S256x128_S2000x128_1_0_0_1_n_n.lhsBatch by decide),
    dif_pos (show (0 : Fin S2000x256.rank) ∈ dot_S2000x256_S256x128_S2000x128_1_0_0_1_n_n.lhsNonContracting by decide)]
  rfl
/-- … and its column is the contraction's coordinate. -/
theorem lhs128_1 (j : S2000x128.Idx) (k : dot_S2000x256_S256x128_S2000x128_1_0_0_1_n_n.contr.Idx) :
    (dot_S2000x256_S256x128_S2000x128_1_0_0_1_n_n.lhsIdx j k 1).val = (k ⟨0, by decide⟩).val :=
  dot_S2000x256_S256x128_S2000x128_1_0_0_1_n_n.lhsIdx_val_of_single rfl j k
/-- The right operand's row is the contraction's coordinate … -/
theorem rhs128_0 (j : S2000x128.Idx) (k : dot_S2000x256_S256x128_S2000x128_1_0_0_1_n_n.contr.Idx) :
    (dot_S2000x256_S256x128_S2000x128_1_0_0_1_n_n.rhsIdx j k 0).val = (k ⟨0, by decide⟩).val :=
  dot_S2000x256_S256x128_S2000x128_1_0_0_1_n_n.rhsIdx_val_of_single rfl j k
/-- … and its column is the output's. -/
theorem rhs128_1 (j : S2000x128.Idx) (k : dot_S2000x256_S256x128_S2000x128_1_0_0_1_n_n.contr.Idx) :
    (dot_S2000x256_S256x128_S2000x128_1_0_0_1_n_n.rhsIdx j k 1).val = (j 1).val := by
  unfold DotDims.rhsIdx
  rw [dif_neg (show ¬(1 : Fin S256x128.rank) ∈ dot_S2000x256_S256x128_S2000x128_1_0_0_1_n_n.rhsBatch by decide),
    dif_pos (show (1 : Fin S256x128.rank) ∈ dot_S2000x256_S256x128_S2000x128_1_0_0_1_n_n.rhsNonContracting by decide)]
  rfl

/-- A [2000,256] by [256,128] product accumulated into zero, at (p, j): row p times column j. -/
theorem matmul128_apply {φ₁ φ₂ : FTy} (l : FVec Ideal S2000x256 φ₁) (r : FVec Ideal S256x128 φ₂) (p : Fin 2000) (j : Fin 128) :
    FloatOps.matmul dot_S2000x256_S256x128_S2000x128_1_0_0_1_n_n none l r (constant (F := Ideal) S2000x128 .f32 0x00000000#32) (ix2 p j)
      = ∑ k : Fin 256, l (ix2 p k) * r (ix2 k j) := by
  rw [Ideal.matmul_constant_zero_apply,
    ← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p j)
      ((contrEquiv1 dot_S2000x256_S256x128_S2000x128_1_0_0_1_n_n 256 rfl rfl).symm k) = ix2 p k :=
    funext fun a => Fin.ext (by
      match a with
      | ⟨0, _⟩ => exact lhs128_0 _ _
      | ⟨1, _⟩ => exact (lhs128_1 _ _).trans hk)
  have er : dot_S2000x256_S256x128_S2000x128_1_0_0_1_n_n.rhsIdx (ix2 p j)
      ((contrEquiv1 dot_S2000x256_S256x128_S2000x128_1_0_0_1_n_n 256 rfl rfl).symm k) = ix2 k j :=
    funext fun a => Fin.ext (by
      match a with
      | ⟨0, _⟩ => exact (rhs128_0 _ _).trans hk
      | ⟨1, _⟩ => exact rhs128_1 _ _)
  rw [el, er]

/-! ## The logits: both products and the bias, at (p, j) -/

/-- The sum the body slices its two lanes from, as a function of the loaded vectors. -/
def logitsVec (a x : Vec Ideal S2000x256 .f32) (wl wr : Vec Ideal S256x128 .f32) (b : Vec Ideal S128 .f32) : FVec Ideal S2000x128 .f32 :=
  addf
    (addf
      (matmul dot_S2000x256_S256x128_S2000x128_1_0_0_1_n_n none
        (truncf (F := Ideal) .bf16 (shapeCast S2000x256 a shapeCasts_S2000x256_S2000x256) bitsLt_bf16_f32)
        (truncf (F := Ideal) .bf16 (shapeCast S256x128 wl shapeCasts_S256x128_S256x128) bitsLt_bf16_f32)
        (constant (F := Ideal) S2000x128 .f32 0x00000000#32))
      (broadcastTo S2000x128 (shapeCast S1x128 (shapeCast S128 b shapeCasts_S128_S128) shapeCasts_S128_S1x128) broadcasts_S1x128_S2000x128))
    (matmul dot_S2000x256_S256x128_S2000x128_1_0_0_1_n_n none
      (truncf (F := Ideal) .bf16 (shapeCast S2000x256 x shapeCasts_S2000x256_S2000x256) bitsLt_bf16_f32)
      (truncf (F := Ideal) .bf16 (shapeCast S256x128 wr shapeCasts_S256x128_S256x128) bitsLt_bf16_f32)
      (constant (F := Ideal) S2000x128 .f32 0x00000000#32))

/-- At (p, j) it is the logit: the shape casts are to the same shape, the narrowing to bf16 is the identity on extended
    reals, and the bias row is broadcast down the rows. -/
theorem logitsVec_apply (a x : Vec Ideal S2000x256 .f32) (wl wr : Vec Ideal S256x128 .f32) (b : Vec Ideal S128 .f32) (p : Fin 2000) (j : Fin 128) :
    logitsVec a x wl wr b (ix2 p j) = logit2 a x wl wr b p j := by
  unfold logitsVec logit2
  simp only [shapeCast_self]
  show FloatOps.matmul dot_S2000x256_S256x128_S2000x128_1_0_0_1_n_n none
          (truncf (F := Ideal) .bf16 a bitsLt_bf16_f32) (truncf (F := Ideal) .bf16 wl bitsLt_bf16_f32)
          (constant (F := Ideal) S2000x128 .f32 0x00000000#32) (ix2 p j)
        + broadcastTo S2000x128 (shapeCast S1x128 b shapeCasts_S128_S1x128) broadcasts_S1x128_S2000x128 (ix2 p j)
        + FloatOps.matmul dot_S2000x256_S256x128_S2000x128_1_0_0_1_n_n none
          (truncf (F := Ideal) .bf16 x bitsLt_bf16_f32) (truncf (F := Ideal) .bf16 wr bitsLt_bf16_f32)
          (constant (F := Ideal) S2000x128 .f32 0x00000000#32) (ix2 p j) = _
  rw [matmul128_apply, matmul128_apply, broadcastTo_1b_ab_apply, shapeCast_a_1a_apply]
  rfl

/-! ## Layout steps of the tail, at an index -/

/-- The first two lanes of a [2000,128] vector, at (p, q): the vector at (p, q). -/
theorem lanes2_apply {α : Type} (v : S2000x128.Idx → α) (p : Fin 2000) (q : Fin 2) :
    extractStridedSlice S2000x2 ![0, 0] v slices_S2000x128_o0_0_S2000x2 (ix2 p q)
      = v (ix2 p (Fin.castLE (by decide : 2 ≤ 128) q)) :=
  slice2_axis1_apply 0 v slices_S2000x128_o0_0_S2000x2 p q _ (Nat.zero_add _).symm

/-- The index over row p with lane k inserted is (p, k). -/
theorem lift_row (p : Fin 2000) (k : Fin 2) : reduces_S2000x2_S2000.lift (ix1 p) k = ix2 p k :=
  funext fun c => Fin.ext (by
    match c with
    | ⟨0, _⟩ => rfl
    | ⟨1, _⟩ => rfl)

/-- The f32 pattern of negative infinity is the bottom of the extended reals. -/
theorem ofBits_negInf_f32 : Ideal.ofBits .f32 0xFF800000#32 = ⊥ := by simp [Ideal.ofBits, Ideal.ieee]

/-- A [2000] vector cast to a column [2000,1] reads, at (p, u), the vector at p. -/
theorem column_apply {α : Type} (v : S2000.Idx → α) (p : Fin 2000) (u : Fin 1) :
    shapeCast S2000x1 v shapeCasts_S2000_S2000x1 (ix2 p u) = v (ix1 p) :=
  shapeCast_apply v shapeCasts_S2000_S2000x1 _ _ (by
    have hu : u.val = 0 := by omega
    rw [Shape.rowMajor_val_two, Shape.rowMajor_val_one]
    show p.val = p.val * 1 + u.val
    rw [hu, Nat.mul_one, Nat.add_zero])

/-- A column [2000,1] broadcast along the lanes to [2000,2] reads, at (p, q), the column at row p. -/
theorem lanesOfColumn_apply {α : Type} (w : S2000x1.Idx → α) (p : Fin 2000) (q : Fin 2) :
    broadcastTo S2000x2 w broadcasts_S2000x1_S2000x2 (ix2 p q) = w (ix2 p (0 : Fin 1)) := by
  refine broadcastTo_apply w broadcasts_S2000x1_S2000x2 (ix2 p q) (ix2 p (0 : Fin 1)) fun ax => ?_
  match ax with
  | ⟨0, _⟩ =>
    show p.val = if (2000 : Nat) = 1 then 0 else p.val
    rw [if_neg (by decide)]
  | ⟨1, _⟩ => rfl

/-! ## The two lane reductions, at a row -/

/-- The maximum over the two lanes, from negative infinity, at row p. -/
theorem rowMax_apply (z : FVec Ideal S2000x2 .f32) (p : Fin 2000) :
    multiReduction (F := Ideal) .maximumf [1] S2000 z 0xFF800000#32 reduces_S2000x2_S2000 (.inl rfl) rfl (ix1 p)
      = (Finset.univ : Finset (Fin 2)).fold max ⊥ (fun k => z (ix2 p k)) := by
  refine (Ideal.multiReduction_maximumf_single z 0xFF800000#32 reduces_S2000x2_S2000 (.inl rfl) rfl (ix1 p)).trans ?_
  show (Finset.univ : Finset (Fin 2)).fold max (Ideal.ofBits .f32 0xFF800000#32) (fun k => z (reduces_S2000x2_S2000.lift (ix1 p) k)) = _
  rw [ofBits_negInf_f32]
  exact congrArg (fun f : Fin 2 → EReal => (Finset.univ : Finset (Fin 2)).fold max ⊥ f)
    (funext fun k => congrArg z (lift_row p k))

/-- The sum over the two lanes at row p. -/
theorem rowSum_apply (z : FVec Ideal S2000x2 .f32) (p : Fin 2000) :
    multiReduction (F := Ideal) .add [1] S2000 z 0x00000000#32 reduces_S2000x2_S2000 (.inl rfl) rfl (ix1 p)
      = ∑ k : Fin 2, z (ix2 p k) := by
  refine (Ideal.multiReduction_add_single z 0x00000000#32 reduces_S2000x2_S2000 (.inl rfl) rfl (ix1 p)).trans ?_
  exact Finset.sum_congr rfl fun k _ => congrArg z (lift_row p k)

/-! ## The tail: the log-softmax of the two lanes -/

/-- The row maximum, kept as a column and broadcast back over the lanes. -/
def rowMaxLanes (z : FVec Ideal S2000x2 .f32) : FVec Ideal S2000x2 .f32 :=
  broadcastTo S2000x2
    (shapeCast S2000x1 (multiReduction (F := Ideal) .maximumf [1] S2000 z 0xFF800000#32 reduces_S2000x2_S2000 (.inl rfl) rfl)
      shapeCasts_S2000_S2000x1)
    broadcasts_S2000x1_S2000x2

theorem rowMaxLanes_apply (z : FVec Ideal S2000x2 .f32) (p : Fin 2000) (q : Fin 2) :
    rowMaxLanes z (ix2 p q) = (Finset.univ : Finset (Fin 2)).fold max ⊥ (fun k => z (ix2 p k)) := by
  unfold rowMaxLanes
  exact (lanesOfColumn_apply _ p q).trans ((column_apply _ p 0).trans (rowMax_apply z p))

/-- The body's tail on the sliced lanes `z`: subtract the row maximum, then the log of the row's sum of exponentials. -/
def softmaxTail (z : FVec Ideal S2000x2 .f32) : FVec Ideal S2000x2 .f32 :=
  subf (subf z (rowMaxLanes z))
    (broadcastTo S2000x2
      (log (shapeCast S2000x1
        (multiReduction (F := Ideal) .add [1] S2000 (exp (subf z (rowMaxLanes z))) 0x00000000#32 reduces_S2000x2_S2000 (.inl rfl) rfl)
        shapeCasts_S2000_S2000x1))
      broadcasts_S2000x1_S2000x2)

theorem softmaxTail_apply (z : FVec Ideal S2000x2 .f32) (p : Fin 2000) (q : Fin 2) :
    softmaxTail z (ix2 p q) = logSoftmax2 (fun k => z (ix2 p k)) q := by
  unfold softmaxTail logSoftmax2
  rw [subf_apply, subf_apply, rowMaxLanes_apply, lanesOfColumn_apply]
  show _ - Ideal.log (shapeCast S2000x1
        (multiReduction (F := Ideal) .add [1] S2000 (exp (subf z (rowMaxLanes z))) 0x00000000#32 reduces_S2000x2_S2000 (.inl rfl) rfl)
        shapeCasts_S2000_S2000x1 (ix2 p (0 : Fin 1))) = _
  rw [column_apply, rowSum_apply]
  refine congrArg (fun s => _ - Ideal.log s) (Finset.sum_congr rfl fun k _ => ?_)
  show Ideal.exp (z (ix2 p k) - rowMaxLanes z (ix2 p k)) = _
  rw [rowMaxLanes_apply]

/-! ## The body at an index -/

/-- The second layer's stored value at (p, q): the log-softmax, over the first two lanes, of row p's logits. -/
theorem pay1_apply (a x : Vec Ideal S2000x256 .f32) (wl wr : Vec Ideal S256x128 .f32) (b : Vec Ideal S128 .f32) (p : Fin 2000) (q : Fin 2) :
    k1_pay1 (F := Ideal) a x wl wr b (ix2 p q)
      = logSoftmax2 (fun j : Fin 2 => logit2 a x wl wr b p (Fin.castLE (by decide : 2 ≤ 128) j)) q := by
  have hbody : k1_pay1 (F := Ideal) a x wl wr b
      = softmaxTail (extractStridedSlice S2000x2 ![0, 0] (logitsVec a x wl wr b) slices_S2000x128_o0_0_S2000x2) := rfl
  rw [hbody, softmaxTail_apply]
  exact congrArg (fun lg => logSoftmax2 lg q) (funext fun k => (lanes2_apply _ p k).trans (logitsVec_apply a x wl wr b p _))

end Cert.KernelIdeal.BodyValue

end
-- ==== Proof.Layer2Array.lean ====
/-
  Layer 2 as ONE function of whole arrays.

  The second pallas_call also runs over 25 grid points; at point t it reads rows 2000·t … 2000·t+1999 of the
  aggregate of the hidden features and of the hidden features (windows 0 and 1), the two weight matrices padded from
  2 to 128 columns and the bias padded from 2 to 128 entries whole (windows 2, 4 and 3), and writes rows
  2000·t … 2000·t+1999 of the [50000, 2] result (window 5). The body forms 128 logits per row but keeps lanes 0 and 1
  only, so what it stores at row p, class q is the log-softmax, over the classes j = 0, 1, of
  Σₖ A[r,k]·Pl[k,j] + pb[j] + Σₖ H[r,k]·Pr[k,j] with r = 2000·t + p: entry (r, q) of `scoresPadded` below. The 25 blocks
  tile the 50000 rows, so after the region the result array IS `scoresPadded` of the region's input arrays.
-/
import proofs.«180262_j20581483282517_1_alg».proof.Proof.Gen.KernelIdeal.Frame
import proofs.«180262_j20581483282517_1_alg».proof.Proof.Layer2Body
import Idealize.ShloMosaic.Lib.Pipeline.Value

set_option maxRecDepth 16384

noncomputable section

open scoped BigOperators

namespace Cert.KernelIdeal.ArrayValue

open Cert.KernelIdeal Cert.KernelIdeal.Gen Cert.KernelIdeal.BodyValue
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Class j of two as lane j of 128. -/
abbrev lane (j : Fin 2) : Fin 128 := Fin.castLE (by decide : 2 ≤ 128) j

/-- Layer 2 on whole arrays, over the padded weights: entry (r, q) is the log-softmax at class q of the two logits
    of node r, each logit read off lane j of the padded matrices and bias. -/
def scoresPadded (A H : Vec Ideal S50000x256 .f32) (Pl Pr : Vec Ideal S256x128 .f32) (pb : Vec Ideal S128 .f32) :
    Vec Ideal S50000x2 .f32 :=
  fun i => logSoftmax2 (fun j : Fin 2 =>
    (∑ k : Fin 256, A (ix2 (i 0) k) * Pl (ix2 k (lane j))) + pb (ix1 (lane j))
      + ∑ k : Fin 256, H (ix2 (i 0) k) * Pr (ix2 k (lane j))) (i 1)

theorem zero2' : (![0, 0] : Fin 2 → Nat) = fun _ => 0 := funext fun a => by fin_cases a <;> rfl
theorem zero1' : (![0] : Fin 1 → Nat) = fun _ => 0 := funext fun a => by fin_cases a; rfl

/-- The printed index maps over the grid: the row-blocked windows move together, the whole-array windows stay at
    block 0, and the output's row block stays below 25. -/
theorem index_facts1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (1 : Fin 2) = 0 ∧ win1_5.index t (0 : Fin 2) ≤ 24 :=
  (by decide +kernel : ∀ t : Fin grid1.N, _)

/-- Every row block is some point's. -/
theorem index_onto1 : ∀ q0 : Fin 25, ∃ t : Fin cfg1.N, win1_5.index t = ![q0.val, 0] :=
  (by decide +kernel : ∀ q0 : Fin 25, ∃ t : Fin grid1.N, win1_5.index t = ![q0.val, 0])

/-- What point `t` writes back is block `t` of `scoresPadded` of the arrays as the region finds them. -/
theorem flushed1_eq (c : Dev nD) (t : Fin cfg1.N) :
    (dat1 V c).flushed 5 t = ((cfg1.win 5).blk t).view.read (Elt Ideal)
      (scoresPadded (V c main_v38) (V c main_v26) (V c main_v41) (V c main_v42) (V c main_v43)) := by
  show (cfg1.win 5).cut (grid1.coords t) ((dat1 V c).after 5 t) = _
  rw [after1_5]
  unfold out1_5
  rw [View.canon_unit_zero zero2']
  simp only [View.ld_unit_zero (S := S2000x256) zero2', View.ld_unit_zero (S := S256x128) zero2',
    View.ld_unit_zero (S := S128) zero1']
  obtain ⟨e00, e01, e10, e11, e20, e21, e30, e40, e41, e51, e5b⟩ := index_facts1 t
  funext j
  obtain ⟨p, q, rfl⟩ : ∃ (p : Fin 2000) (q : Fin 2), j = ix2 p q := ⟨j 0, j 1, eq_ix2 j⟩
  refine (pay1_apply (iblk1 V c 0 t) (iblk1 V c 1 t) (iblk1 V c 2 t) (iblk1 V c 4 t) (iblk1 V c 3 t) p q).trans ?_
  -- the array index of the block's entry (p, q): row 2000·t + p, class q
  have hE0 : ((((cfg1.win 5).blk t).view.emb (ix2 p q)) 0).val = win1_5.index t (0 : Fin 2) * 2000 + 1 * p.val := rfl
  have hE1 : ((((cfg1.win 5).blk t).view.emb (ix2 p q)) 1).val = win1_5.index t (1 : Fin 2) * 2 + 1 * q.val := rfl
  have hq : (((cfg1.win 5).blk t).view.emb (ix2 p q)) 1 = q := Fin.ext (by rw [hE1]; omega)
  -- each input block, read where the output's rectangle says
  have h0 : ∀ k : Fin 256, iblk1 V c 0 t (ix2 p k)
      = V c main_v38 (ix2 ((((cfg1.win 5).blk t).view.emb (ix2 p q)) 0) k : S50000x256.Idx) := fun k => by
    show V c main_v38 (((cfg1.win 0).blk t).view.emb (ix2 p k)) = _
    refine congrArg _ (funext fun a => Fin.ext ?_)
    match a with
    | ⟨0, _⟩ => show win1_0.index t (0 : Fin 2) * 2000 + 1 * p.val = _; rw [hE0]; omega
    | ⟨1, _⟩ => show win1_0.index t (1 : Fin 2) * 256 + 1 * k.val = k.val; omega
  have h1 : ∀ k : Fin 256, iblk1 V c 1 t (ix2 p k)
      = V c main_v26 (ix2 ((((cfg1.win 5).blk t).view.emb (ix2 p q)) 0) k : S50000x256.Idx) := fun k => by
    show V c main_v26 (((cfg1.win 1).blk t).view.emb (ix2 p k)) = _
    refine congrArg _ (funext fun a => Fin.ext ?_)
    match a with
    | ⟨0, _⟩ => show win1_1.index t (0 : Fin 2) * 2000 + 1 * p.val = _; rw [hE0]; omega
    | ⟨1, _⟩ => show win1_1.index t (1 : Fin 2) * 256 + 1 * k.val = k.val; omega
  have h2 : ∀ (k : Fin 256) (l : Fin 128), iblk1 V c 2 t (ix2 k l) = V c main_v41 (ix2 k l : S256x128.Idx) := fun k l => by
    show V c main_v41 (((cfg1.win 2).blk t).view.emb (ix2 k l)) = _
    refine congrArg _ (funext fun a => Fin.ext ?_)
    match a with
    | ⟨0, _⟩ => show win1_2.index t (0 : Fin 2) * 256 + 1 * k.val = k.val; omega
    | ⟨1, _⟩ => show win1_2.index t (1 : Fin 2) * 128 + 1 * l.val = l.val; omega
  have h4 : ∀ (k : Fin 256) (l : Fin 128), iblk1 V c 4 t (ix2 k l) = V c main_v42 (ix2 k l : S256x128.Idx) := fun k l => by
    show V c main_v42 (((cfg1.win 4).blk t).view.emb (ix2 k l)) = _
    refine congrArg _ (funext fun a => Fin.ext ?_)
    match a with
    | ⟨0, _⟩ => show win1_4.index t (0 : Fin 2) * 256 + 1 * k.val = k.val; omega
    | ⟨1, _⟩ => show win1_4.index t (1 : Fin 2) * 128 + 1 * l.val = l.val; omega
  have h3 : ∀ l : Fin 128, iblk1 V c 3 t (ix1 l) = V c main_v43 (ix1 l : S128.Idx) := fun l => by
    show V c main_v43 (((cfg1.win 3).blk t).view.emb (ix1 l)) = _
    refine congrArg _ (funext fun a => Fin.ext ?_)
    match a with
    | ⟨0, _⟩ => show win1_3.index t (0 : Fin 1) * 128 + 1 * l.val = l.val; omega
  show _ = scoresPadded (V c main_v38) (V c main_v26) (V c main_v41) (V c main_v42) (V c main_v43)
    (((cfg1.win 5).blk t).view.emb (ix2 p q))
  unfold scoresPadded
  rw [hq]
  refine congrArg (fun lg => logSoftmax2 lg q) (funext fun j => ?_)
  unfold logit2
  simp only [h0, h1, h2, h3, h4]

/-- An index of the result array is in point `t`'s block iff each coordinate is in the block's range on its axis. -/
theorem mem_block1 (t : Fin cfg1.N) (i : S50000x2.Idx) :
    i ∈ ((cfg1.win 5).blk t).view.set ↔ ∀ a : Fin 2, win1_5.index t a * S2000x2.size a ≤ (i a).val
      ∧ (i a).val < win1_5.index t a * S2000x2.size a + S2000x2.size a := by
  show i ∈ ((View.whole main_v44).slice (win1_5.rect t)).set ↔ _
  rw [View.set_slice_whole, Rect.mem_set_unit]
  exact Iff.rfl

/-- The 25 row blocks cover the array: row r lies in the block of point r / 2000. -/
theorem cover1 (i : S50000x2.Idx) :
    ∃ t : Fin cfg1.N, (cfg1.win 5).flush t = true ∧ i ∈ ((cfg1.win 5).blk t).view.set := by
  have hi0 : (i 0).val < 50000 := (i 0).isLt
  have hi1 : (i 1).val < 2 := (i 1).isLt
  obtain ⟨t, ht⟩ := index_onto1 ⟨(i 0).val / 2000, by omega⟩
  have q0 : win1_5.index t (0 : Fin 2) = (i 0).val / 2000 := congrFun ht 0
  have q1 : win1_5.index t (1 : Fin 2) = 0 := congrFun ht 1
  refine ⟨t, flush1_5 t, ?_⟩
  rw [mem_block1]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 2 ≤ (i 1).val ∧ (i 1).val < win1_5.index t (1 : Fin 2) * 2 + 2; omega

/-- After the second region the result array is layer 2, over the padded weights, of the arrays the region found. -/
theorem scores_array (c : Dev nD) :
    (dat1 V c).arrAt 5 cfg1.N
      = scoresPadded (V c main_v38) (V c main_v26) (V c main_v41) (V c main_v42) (V c main_v43) :=
  (dat1 V c).arrAt_eq_of_cover 5 _ (fun t _ => flushed1_eq V c t) cover1

end Cert.KernelIdeal.ArrayValue

end
-- ==== Proof.RefValue.lean ====
/-
  The reference program's two layers as the specification's functions: its rectified stage is `Spec.hidden` of the
  stages it is computed from, and its result stage is `Spec.scores` of the stages that one is computed from.
-/
import proofs.«180262_j20581483282517_1_alg».proof.Proof.RefRead
import proofs.«180262_j20581483282517_1_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.ReferenceIdeal.RefValue

open Cert.ReferenceIdeal Cert.ReferenceIdeal.ReadP Idealize.ShloMosaic Idealize.ShloMosaic.ValueIdx

/-! ## Layer 1 -/

/-- The operand indices of the two [50000,256] by [256,256] products at (r, q), and the bias's index, by coordinates. -/
theorem lidx23_eq (r : Fin 50000) (q k : Fin 256) : lidx_main_v23 (ix2 r q) k = ix2 r k :=
  funext fun a => Fin.ext (by match a with | ⟨0, _⟩ => rfl | ⟨1, _⟩ => rfl)
theorem ridx23_eq (r : Fin 50000) (q k : Fin 256) : ridx_main_v23 (ix2 r q) k = ix2 k q :=
  funext fun a => Fin.ext (by match a with | ⟨0, _⟩ => rfl | ⟨1, _⟩ => rfl)
theorem lidx28_eq (r : Fin 50000) (q k : Fin 256) : lidx_main_v28 (ix2 r q) k = ix2 r k :=
  funext fun a => Fin.ext (by match a with | ⟨0, _⟩ => rfl | ⟨1, _⟩ => rfl)
theorem ridx28_eq (r : Fin 50000) (q k : Fin 256) : ridx_main_v28 (ix2 r q) k = ix2 k q :=
  funext fun a => Fin.ext (by match a with | ⟨0, _⟩ => rfl | ⟨1, _⟩ => rfl)
theorem bias1_idx_eq (r : Fin 50000) (q : Fin 256) : idx_main_v24 (idx_main_v25 (ix2 r q)) = ix1 q :=
  funext fun a => Fin.ext (by match a with | ⟨0, _⟩ => rfl)

/-- Layer 1 of the reference: the stage main_v30 (relu of agg·W1lᵀ + b1 + x·W1rᵀ) is Spec.hidden of its aggregate stage main_v21, the features, the two transposed-weight stages main_v22 and main_v27, and the bias. -/
theorem hidden_ref (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) :
    val_main_v30 (F := Ideal) x0 x1 x2 x3 x4
      = Cert.Spec.hidden (val_main_v21 (F := Ideal) x0 x1) x0 (val_main_v22 (F := Ideal) x2) (val_main_v27 (F := Ideal) x4) x3 := by
  funext i
  obtain ⟨r, q, rfl⟩ : ∃ (r : Fin 50000) (q : Fin 256), i = ix2 r q := ⟨i 0, i 1, eq_ix2 i⟩
  rw [val_main_v30_apply, val_main_v29_apply, val_main_v26_apply, val_main_v23_apply, val_main_v25_apply,
    val_main_v24_apply, val_main_v28_apply, val_main_call0_v0_apply, val_main_call0_cst_apply, bias1_idx_eq]
  simp only [lidx23_eq, ridx23_eq, lidx28_eq, ridx28_eq]
  unfold Cert.Spec.hidden
  show max _ (Ideal.ofBits .f32 0x00000000#32) = max _ 0
  rw [Ideal.ofBits_zero_f32]
  rfl

/-! ## Layer 2 -/

/-- The operand indices of the two [50000,256] by [256,2] products at (r, j), and the bias's index, by coordinates. -/
theorem lidx50_eq (r : Fin 50000) (j : Fin 2) (k : Fin 256) : lidx_main_v50 (ix2 r j) k = ix2 r k :=
  funext fun a => Fin.ext (by match a with | ⟨0, _⟩ => rfl | ⟨1, _⟩ => rfl)
theorem ridx50_eq (r : Fin 50000) (j : Fin 2) (k : Fin 256) : ridx_main_v50 (ix2 r j) k = ix2 k j :=
  funext fun a => Fin.ext (by match a with | ⟨0, _⟩ => rfl | ⟨1, _⟩ => rfl)
theorem lidx55_eq (r : Fin 50000) (j : Fin 2) (k : Fin 256) : lidx_main_v55 (ix2 r j) k = ix2 r k :=
  funext fun a => Fin.ext (by match a with | ⟨0, _⟩ => rfl | ⟨1, _⟩ => rfl)
theorem ridx55_eq (r : Fin 50000) (j : Fin 2) (k : Fin 256) : ridx_main_v55 (ix2 r j) k = ix2 k j :=
  funext fun a => Fin.ext (by match a with | ⟨0, _⟩ => rfl | ⟨1, _⟩ => rfl)
theorem bias2_idx_eq (r : Fin 50000) (j : Fin 2) : idx_main_v51 (idx_main_v52 (ix2 r j)) = ix1 j :=
  funext fun a => Fin.ext (by match a with | ⟨0, _⟩ => rfl)

/-- The logits stage main_v56 at (r, j) is the specification's logit of the stages it is computed from. -/
theorem logits_ref (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S2x256, .f32⟩ : BufTy).Contents (Elt Ideal)) (x6 : (⟨S2, .f32⟩ : BufTy).Contents (Elt Ideal)) (x7 : (⟨S2x256, .f32⟩ : BufTy).Contents (Elt Ideal)) (r : Fin 50000) (j : Fin 2) :
    val_main_v56 (F := Ideal) x0 x1 x2 x3 x4 x5 x6 x7 (ix2 r j)
      = Cert.Spec.logit (val_main_v48 (F := Ideal) x0 x1 x2 x3 x4) (val_main_v30 (F := Ideal) x0 x1 x2 x3 x4)
          (val_main_v49 (F := Ideal) x5) (val_main_v54 (F := Ideal) x7) x6 r j := by
  rw [val_main_v56_apply, val_main_v53_apply, val_main_v50_apply, val_main_v52_apply, val_main_v51_apply,
    val_main_v55_apply, bias2_idx_eq]
  simp only [lidx50_eq, ridx50_eq, lidx55_eq, ridx55_eq]
  rfl

/-- The f32 pattern of negative infinity is the bottom of the extended reals. -/
theorem ofBits_negInf_f32 : Ideal.ofBits .f32 0xFF800000#32 = ⊥ := by simp [Ideal.ofBits, Ideal.ieee]

/-- The index over row r with class k inserted is (r, k). -/
theorem lift_row (h : S50000x2.Reduces [1] S50000) (r : Fin 50000) (k : Fin 2) : h.lift (ix1 r) k = ix2 r k :=
  funext fun c => Fin.ext (by match c with | ⟨0, _⟩ => rfl | ⟨1, _⟩ => rfl)

/-- Where the two keepdims broadcasts read the row reductions, by coordinates. -/
theorem rowMax_idx_eq (r : Fin 50000) (q : Fin 2) : idx_main_call1_v3 (idx_main_call1_v4 (ix2 r q)) = ix1 r :=
  funext fun a => Fin.ext (by match a with | ⟨0, _⟩ => rfl)
theorem rowSum_idx_eq (r : Fin 50000) (q k : Fin 2) :
    idx_main_call1_v7 (idx_main_call1_v8 (idx_main_call1_v10 (ix2 r q))) k = ix2 r k :=
  funext fun a => Fin.ext (by match a with | ⟨0, _⟩ => rfl | ⟨1, _⟩ => rfl)

/-- The stage that spreads each row's maximum over the classes, at (r, q): the fold of max from -∞ over row r of the
    logits (the maximum against the broadcast -∞ changes nothing, -∞ being the bottom). -/
theorem rowMax_ref (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S2x256, .f32⟩ : BufTy).Contents (Elt Ideal)) (x6 : (⟨S2, .f32⟩ : BufTy).Contents (Elt Ideal)) (x7 : (⟨S2x256, .f32⟩ : BufTy).Contents (Elt Ideal)) (r : Fin 50000) (q : Fin 2) :
    val_main_call1_v4 (F := Ideal) x0 x1 x2 x3 x4 x5 x6 x7 (ix2 r q)
      = (Finset.univ : Finset (Fin 2)).fold max ⊥ (fun k => val_main_v56 (F := Ideal) x0 x1 x2 x3 x4 x5 x6 x7 (ix2 r k)) := by
  have h : S50000x2.Reduces [1] S50000 := by decide
  rw [val_main_call1_v4_apply, val_main_call1_v3_apply, val_main_call1_v2_apply, val_main_call1_v1_apply,
    val_main_call1_cst_0_apply, rowMax_idx_eq]
  show max (Ideal.ofBits .f32 0xFF800000#32) (val_main_call1_v0 (F := Ideal) x0 x1 x2 x3 x4 x5 x6 x7 (ix1 r)) = _
  rw [ofBits_negInf_f32, max_bot_left]
  unfold val_main_call1_v0
  refine (Host.reduce_eq_fold_single (FloatOps.maximumf (F := Ideal) (φ := .f32)) _ _ _ h _ (ix1 r)).trans ?_
  show (Finset.univ : Finset (Fin 2)).fold max (Ideal.ofBits .f32 0xFF800000#32)
      (fun k => val_main_v56 (F := Ideal) x0 x1 x2 x3 x4 x5 x6 x7 (h.lift (ix1 r) k)) = _
  rw [ofBits_negInf_f32]
  exact congrArg (fun f : Fin 2 → EReal => (Finset.univ : Finset (Fin 2)).fold max ⊥ f)
    (funext fun k => congrArg (val_main_v56 (F := Ideal) x0 x1 x2 x3 x4 x5 x6 x7) (lift_row h r k))

/-- The stage that spreads the logarithm of each row's sum of exponentials over the classes, at (r, q). -/
theorem logSum_ref (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S2x256, .f32⟩ : BufTy).Contents (Elt Ideal)) (x6 : (⟨S2, .f32⟩ : BufTy).Contents (Elt Ideal)) (x7 : (⟨S2x256, .f32⟩ : BufTy).Contents (Elt Ideal)) (r : Fin 50000) (q : Fin 2) :
    val_main_call1_v10 (F := Ideal) x0 x1 x2 x3 x4 x5 x6 x7 (ix2 r q)
      = Ideal.log (∑ k : Fin 2, Ideal.exp (val_main_v56 (F := Ideal) x0 x1 x2 x3 x4 x5 x6 x7 (ix2 r k)
          - (Finset.univ : Finset (Fin 2)).fold max ⊥ (fun k' => val_main_v56 (F := Ideal) x0 x1 x2 x3 x4 x5 x6 x7 (ix2 r k')))) := by
  rw [val_main_call1_v10_apply, val_main_call1_v9_apply, val_main_call1_v8_apply, val_main_call1_v7_apply,
    val_main_call1_cst_1_apply]
  rw [Ideal.hostUnary_log_def]
  refine congrArg Ideal.log ?_
  show Ideal.ofBits .f32 0x00000000#32 + _ = _
  rw [Ideal.ofBits_zero_f32, zero_add]
  refine Finset.sum_congr rfl fun k _ => ?_
  rw [rowSum_idx_eq, val_main_call1_v6_apply, val_main_call1_v5_apply, rowMax_ref, Ideal.hostUnary_exp_def]
  exact congrArg Ideal.exp rfl

/-- Layer 2 of the reference: the result stage main_v57 (log_softmax of agg2·W2lᵀ + b2 + h·W2rᵀ) is Spec.scores of its aggregate stage main_v48, the hidden stage main_v30, the two transposed-weight stages main_v49 and main_v54, and the bias. -/
theorem scores_ref (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S2x256, .f32⟩ : BufTy).Contents (Elt Ideal)) (x6 : (⟨S2, .f32⟩ : BufTy).Contents (Elt Ideal)) (x7 : (⟨S2x256, .f32⟩ : BufTy).Contents (Elt Ideal)) :
    val_main_v57 (F := Ideal) x0 x1 x2 x3 x4 x5 x6 x7
      = Cert.Spec.scores (val_main_v48 (F := Ideal) x0 x1 x2 x3 x4) (val_main_v30 (F := Ideal) x0 x1 x2 x3 x4)
          (val_main_v49 (F := Ideal) x5) (val_main_v54 (F := Ideal) x7) x6 := by
  funext i
  obtain ⟨r, q, rfl⟩ : ∃ (r : Fin 50000) (q : Fin 2), i = ix2 r q := ⟨i 0, i 1, eq_ix2 i⟩
  rw [val_main_v57_apply, val_main_call1_v5_apply, rowMax_ref, logSum_ref]
  unfold Cert.Spec.scores Cert.Spec.logSoftmax2
  simp only [logits_ref]
  rfl

end Cert.ReferenceIdeal.RefValue

end
-- ==== Proof.MeanAggregate.lean ====
/-
  The mean over a node's incoming edges, two ways.

  Both programs scatter-add the gathered source rows into their destination rows, S, and count the edges into each
  row, cnt (a scatter-add of ones). The reference divides: S[r,q] / max(cnt[r], 1). The kernel multiplies by a
  reciprocal it computes once: S[r,q] · (1 / max(cnt[r], 1)). On the extended reals a quotient by c is the product
  with c⁻¹ whenever c ≠ 0, and 1 / c is then c⁻¹ itself; c = max(cnt, 1) ≥ 1 is never 0. So the two arrays are equal,
  entry by entry, for every S and every cnt — nothing about the edges or the finiteness of S is used.
-/
import proofs.«180262_j20581483282517_1_alg».proof.Proof.RefRead
import Idealize.ShloMosaic.Lib.IdealHost

noncomputable section

namespace Cert.ReferenceIdeal.Mean

open Cert.ReferenceIdeal Cert.ReferenceIdeal.Gen Cert.ReferenceIdeal.ReadP
open Idealize.ShloMosaic Idealize.ShloMosaic.TcCoe Idealize.SL.Sem Idealize.ShloMosaic.StableHlo

/-- For c ≥ 1: x · (1 / c) = x / c on the extended reals. -/
theorem mul_one_div {x c : EReal} (hc : 1 ≤ c) : x * Ideal.div 1 c = Ideal.div x c := by
  have h0 : c ≠ 0 := fun h => absurd (h ▸ hc) (by norm_num)
  unfold Ideal.div
  rw [if_neg h0, if_neg h0, one_mul]

/-- A sum array scaled by the broadcast reciprocal of max(cnt, 1): the kernel's form of the mean. -/
def scaledSum (S : FVec Ideal S50000x256 .f32) (cnt : FVec Ideal S50000x1 .f32) : FVec Ideal S50000x256 .f32 :=
  mulf (F := Ideal) S (broadcastInDim S50000x256 ![0, 1] bcast_S50000x1_S50000x256_0_1
    (Host.divf (F := Ideal) (val_main_v18 (F := Ideal)) (maximumf (F := Ideal) cnt (val_main_v18 (F := Ideal)))))

/-- The scaled sum IS the quotient by the broadcast max(cnt, 1): the reference's form of the mean. -/
theorem scaledSum_eq (S : FVec Ideal S50000x256 .f32) (cnt : FVec Ideal S50000x1 .f32) :
    scaledSum S cnt
      = Host.divf (F := Ideal) S (broadcastInDim S50000x256 ![0, 1] bcast_S50000x1_S50000x256_0_1
          (maximumf (F := Ideal) cnt (val_main_v18 (F := Ideal)))) := by
  funext i
  have hb : ∀ y : FVec Ideal S50000x1 .f32,
      broadcastInDim S50000x256 ![0, 1] bcast_S50000x1_S50000x256_0_1 y i = y (idx_main_v20 i) := fun y =>
    broadcastInDim_apply _ bcast_S50000x1_S50000x256_0_1 y i (idx_main_v20 i) (fun a => match a with
      | ⟨0, _⟩ => by show (i 0).val = if (50000 : Nat) = 1 then 0 else (i 0).val; rw [if_neg (by decide)]
      | ⟨1, _⟩ => by show 0 = if (1 : Nat) = 1 then 0 else (i 1).val; rw [if_pos rfl])
  have h18 : val_main_v18 (F := Ideal) (idx_main_v20 i) = (1 : EReal) := by
    rw [val_main_v18_apply, val_main_cst_3_apply]
    exact Ideal.ofBits_one_f32
  show S i * broadcastInDim S50000x256 ![0, 1] bcast_S50000x1_S50000x256_0_1
        (Host.divf (F := Ideal) (val_main_v18 (F := Ideal)) (maximumf (F := Ideal) cnt (val_main_v18 (F := Ideal)))) i
      = Ideal.div (S i) (broadcastInDim S50000x256 ![0, 1] bcast_S50000x1_S50000x256_0_1
          (maximumf (F := Ideal) cnt (val_main_v18 (F := Ideal))) i)
  rw [hb, hb]
  show S i * Ideal.div (val_main_v18 (F := Ideal) (idx_main_v20 i)) (max (cnt (idx_main_v20 i)) (val_main_v18 (F := Ideal) (idx_main_v20 i)))
      = Ideal.div (S i) (max (cnt (idx_main_v20 i)) (val_main_v18 (F := Ideal) (idx_main_v20 i)))
  rw [h18]
  exact mul_one_div (le_max_right _ _)

/-- Layer 1's aggregate: the scaled sum of the gathered features is the reference's stage main_v21. -/
theorem agg1_eq (x0 : (⟨S50000x256, .f32⟩ : BufTy).Contents (Elt Ideal)) (x1 : (⟨S2x800000, .i32⟩ : BufTy).Contents (Elt Ideal)) :
    scaledSum (val_main_v13 (F := Ideal) x0 x1) (val_main_v17 (F := Ideal) x1) = val_main_v21 (F := Ideal) x0 x1 :=
  (scaledSum_eq _ _).trans rfl

/-- The scatter-add of the rows of `H` gathered at the edges' sources into the edges' destinations. -/
def edgeSum (H : FVec Ideal S50000x256 .f32) (x1 : (⟨S2x800000, .i32⟩ : BufTy).Contents (Elt Ideal)) : FVec Ideal S50000x256 .f32 :=
  Host.scatterAdd (F := Ideal) scatter_S50000x256_S800000x1_S800000x256_1_0_0_1 (val_main_v38 (F := Ideal)) (val_main_v39 (F := Ideal) x1)
    (Host.gather gather_S50000x256_S800000x1_S800000x256_1_0_n_n_0_1_1256 H (val_main_v36 (F := Ideal) x1))

/-- Layer 2's aggregate: the scaled edge sum of the hidden features is the reference's stage main_v48 (the reference
    counts the edges a second time; the count is the same term). -/
theorem agg2_eq (x0 : (⟨S50000x256, .f32⟩ : BufTy).Contents (Elt Ideal)) (x1 : (⟨S2x800000, .i32⟩ : BufTy).Contents (Elt Ideal))
    (x2 : (⟨S256x256, .f32⟩ : BufTy).Contents (Elt Ideal)) (x3 : (⟨S256, .f32⟩ : BufTy).Contents (Elt Ideal))
    (x4 : (⟨S256x256, .f32⟩ : BufTy).Contents (Elt Ideal)) :
    scaledSum (edgeSum (val_main_v30 (F := Ideal) x0 x1 x2 x3 x4) x1) (val_main_v17 (F := Ideal) x1)
      = val_main_v48 (F := Ideal) x0 x1 x2 x3 x4 :=
  (scaledSum_eq _ _).trans rfl

end Cert.ReferenceIdeal.Mean

end
-- ==== Proof.KernelValue.lean ====
/-
  What the idealized kernel's result buffer holds, as the reference's own function of the arguments.

  The run ends with the result buffer at the fold's final contents (KernelRun). Walking the fold back:
  the result array is what the second region's 25 blocks leave, layer 2 over the padded weights of the arrays that
  region found (Layer2Array); those arrays are, through the six stretches of host operations before it, the scaled
  edge sum of the first region's output, that output itself, and the transposed weights and the bias padded with
  zeros from 2 to 128 lanes; lanes 0 and 1 of a padded array are the array's own, and the body reads no other lane,
  so layer 2 over the padded weights is layer 2 over the weights (Spec.scores). The first region's output is layer 1
  (Spec.hidden, Layer1Array) of the arrays IT found: the scaled edge sum of the features, the features, the transposed
  weights and the bias. A scaled edge sum is the reference's quotient (MeanAggregate), so both layers are the
  reference's stages (RefValue), and the result is the reference's result stage of the same arguments.
-/
import proofs.«180262_j20581483282517_1_alg».proof.Proof.Gen.KernelIdeal.Frame
import proofs.«180262_j20581483282517_1_alg».proof.Proof.Layer1Array
import proofs.«180262_j20581483282517_1_alg».proof.Proof.Layer2Array
import proofs.«180262_j20581483282517_1_alg».proof.Proof.RefValue
import proofs.«180262_j20581483282517_1_alg».proof.Proof.MeanAggregate
import Idealize.ShloMosaic.Lib.KernelVsHost

set_option maxRecDepth 16384

noncomputable section

open scoped BigOperators

namespace Cert.KernelIdeal.KernelValue

open Cert.KernelIdeal Cert.KernelIdeal.Gen Cert.KernelIdeal.BodyValue Cert.KernelIdeal.ArrayValue
open Idealize.ShloMosaic Idealize.ShloMosaic.TcCoe Idealize.ShloMosaic.Tactic Idealize.ShloMosaic.StableHlo
open Idealize.ShloMosaic.ValueIdx Idealize.SL.Sem

variable (m : (ℓ : Loc nD τ sig) → Buf (Elt Ideal) ℓ) (ρ : Dev nD → PrngReg)

/-- A called function's buffer read back at its value's type: transport there and back is the identity. -/
theorem ofBuf_toBuf {T : BufTy} (x : TRef sig T) (v : T.Contents (Elt Ideal)) : x.ofBuf (x.toBuf v) = v := by
  obtain ⟨r, rfl, h1, h2⟩ := x; rfl

/-! ## The first region's entry contents: the first stretch of host operations applied to the launch memory -/

set_option maxHeartbeats 4000000 in
theorem entry0_agg (c : Dev nD) :
    V1 m ρ c main_v23 = Cert.ReferenceIdeal.Mean.scaledSum (Cert.ReferenceIdeal.ReadP.val_main_v13 (F := Ideal) (m ((c : Thread nD τ).loc main_arg0)) (m ((c : Thread nD τ).loc main_arg1))) (Cert.ReferenceIdeal.ReadP.val_main_v17 (F := Ideal) (m ((c : Thread nD τ).loc main_arg1))) := by
  show StableHlo.after hostOps0 (W0 m ρ c) (Proc.devRef .tc main_v23) = _
  after_results_simp
  rfl

theorem entry0_x (c : Dev nD) : V1 m ρ c main_arg0 = (m ((c : Thread nD τ).loc main_arg0)) := by
  show StableHlo.after hostOps0 (W0 m ρ c) (Proc.devRef .tc main_arg0) = _
  after_results_simp <;> rfl

theorem entry0_b (c : Dev nD) : V1 m ρ c main_arg3 = (m ((c : Thread nD τ).loc main_arg3)) := by
  show StableHlo.after hostOps0 (W0 m ρ c) (Proc.devRef .tc main_arg3) = _
  after_results_simp <;> rfl

theorem entry0_wl (c : Dev nD) : V1 m ρ c main_v24 = Cert.ReferenceIdeal.ReadP.val_main_v22 (F := Ideal) (m ((c : Thread nD τ).loc main_arg2)) := by
  show StableHlo.after hostOps0 (W0 m ρ c) (Proc.devRef .tc main_v24) = _
  after_results_simp <;> rfl

theorem entry0_wr (c : Dev nD) : V1 m ρ c main_v25 = Cert.ReferenceIdeal.ReadP.val_main_v27 (F := Ideal) (m ((c : Thread nD τ).loc main_arg4)) := by
  show StableHlo.after hostOps0 (W0 m ρ c) (Proc.devRef .tc main_v25) = _
  after_results_simp <;> rfl

/-! ## The first region's output: layer 1, the reference's hidden stage -/

theorem hidden_eq (c : Dev nD) :
    W2 m ρ c (Proc.devRef .tc main_v26)
      = Cert.ReferenceIdeal.ReadP.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ?_
  rw [hidden_array (V1 m ρ) c, entry0_agg, entry0_x, entry0_b, entry0_wl, entry0_wr, Cert.ReferenceIdeal.Mean.agg1_eq]
  exact (Cert.ReferenceIdeal.RefValue.hidden_ref _ _ _ _ _).symm

/-! ## Buffers the first stretch wrote and the first region left alone: the later stretches read them -/

set_option maxHeartbeats 4000000 in
theorem kept_dst (c : Dev nD) : W2 m ρ c (Proc.devRef .tc main_v3) = Cert.ReferenceIdeal.ReadP.val_main_v3 (F := Ideal) (m ((c : Thread nD τ).loc main_arg1)) := by
  refine (W2_of_ne m ρ c main_v3 (by decide)).trans ?_
  show StableHlo.after hostOps0 (W0 m ρ c) (Proc.devRef .tc main_v3) = _
  after_results_simp <;> rfl

set_option maxHeartbeats 4000000 in
theorem kept_src (c : Dev nD) : W2 m ρ c (Proc.devRef .tc main_v1) = Cert.ReferenceIdeal.ReadP.val_main_v1 (F := Ideal) (m ((c : Thread nD τ).loc main_arg1)) := by
  refine (W2_of_ne m ρ c main_v1 (by decide)).trans ?_
  show StableHlo.after hostOps0 (W0 m ρ c) (Proc.devRef .tc main_v1) = _
  after_results_simp <;> rfl

set_option maxHeartbeats 4000000 in
/-- The reciprocal of max(count, 1), computed once before the first region. -/
theorem kept_inv (c : Dev nD) :
    W2 m ρ c (Proc.devRef .tc main_v11)
      = Host.divf (F := Ideal) (φ := .f32) (Cert.ReferenceIdeal.ReadP.val_main_v18 (F := Ideal))
          (maximumf (F := Ideal) (φ := .f32) (Cert.ReferenceIdeal.ReadP.val_main_v17 (F := Ideal) (m ((c : Thread nD τ).loc main_arg1))) (Cert.ReferenceIdeal.ReadP.val_main_v18 (F := Ideal))) := by
  refine (W2_of_ne m ρ c main_v11 (by decide)).trans ?_
  show StableHlo.after hostOps0 (W0 m ρ c) (Proc.devRef .tc main_v11) = _
  after_results_simp <;> rfl

theorem kept_w2l (c : Dev nD) : W2 m ρ c (Proc.devRef .tc main_arg5) = (m ((c : Thread nD τ).loc main_arg5)) := by
  refine (W2_of_ne m ρ c main_arg5 (by decide)).trans ?_
  show StableHlo.after hostOps0 (W0 m ρ c) (Proc.devRef .tc main_arg5) = _
  after_results_simp <;> rfl

theorem kept_b2 (c : Dev nD) : W2 m ρ c (Proc.devRef .tc main_arg6) = (m ((c : Thread nD τ).loc main_arg6)) := by
  refine (W2_of_ne m ρ c main_arg6 (by decide)).trans ?_
  show StableHlo.after hostOps0 (W0 m ρ c) (Proc.devRef .tc main_arg6) = _
  after_results_simp <;> rfl

theorem kept_w2r (c : Dev nD) : W2 m ρ c (Proc.devRef .tc main_arg7) = (m ((c : Thread nD τ).loc main_arg7)) := by
  refine (W2_of_ne m ρ c main_arg7 (by decide)).trans ?_
  show StableHlo.after hostOps0 (W0 m ρ c) (Proc.devRef .tc main_arg7) = _
  after_results_simp <;> rfl

/-! ## The second region's entry contents: six stretches of host operations applied to what the first region left -/

set_option maxHeartbeats 4000000 in
theorem entry1_agg (c : Dev nD) :
    V8 m ρ c main_v38
      = Cert.ReferenceIdeal.Mean.scaledSum (Cert.ReferenceIdeal.Mean.edgeSum (W2 m ρ c (Proc.devRef .tc main_v26)) (m ((c : Thread nD τ).loc main_arg1))) (Cert.ReferenceIdeal.ReadP.val_main_v17 (F := Ideal) (m ((c : Thread nD τ).loc main_arg1))) := by
  show StableHlo.after hostOps1_5 (StableHlo.after hostOps1_4 (StableHlo.after hostOps1_3 (StableHlo.after hostOps1_2
    (StableHlo.after hostOps1_1 (StableHlo.after hostOps1 (W2 m ρ c)))))) (Proc.devRef .tc main_v38) = _
  after_results_simp
  rw [kept_dst, kept_src, kept_inv]
  rfl

set_option maxHeartbeats 4000000 in
theorem entry1_h (c : Dev nD) : V8 m ρ c main_v26 = W2 m ρ c (Proc.devRef .tc main_v26) := by
  show StableHlo.after hostOps1_5 (StableHlo.after hostOps1_4 (StableHlo.after hostOps1_3 (StableHlo.after hostOps1_2
    (StableHlo.after hostOps1_1 (StableHlo.after hostOps1 (W2 m ρ c)))))) (Proc.devRef .tc main_v26) = _
  after_results_simp <;> rfl

/-- The padding value: the integer 0 converted to a float. -/
abbrev padValue : FVec Ideal S_ .f32 := sitofp (F := Ideal) .f32 (constantI S_ 32 0#32)

set_option maxHeartbeats 4000000 in
theorem entry1_wl (c : Dev nD) :
    V8 m ρ c main_v41 = pad S256x128 ![0, 0] ![0, 126] ![0, 0] (Cert.ReferenceIdeal.ReadP.val_main_v49 (F := Ideal) (m ((c : Thread nD τ).loc main_arg5))) padValue
      pads_S256x2_S256x128_000_01260 h_S_ := by
  show StableHlo.after hostOps1_5 (StableHlo.after hostOps1_4 (StableHlo.after hostOps1_3 (StableHlo.after hostOps1_2
    (StableHlo.after hostOps1_1 (StableHlo.after hostOps1 (W2 m ρ c)))))) (Proc.devRef .tc main_v41) = _
  after_results_simp
  rw [kept_w2l]
  simp only [ofBuf_toBuf]
  rfl

set_option maxHeartbeats 4000000 in
theorem entry1_wr (c : Dev nD) :
    V8 m ρ c main_v42 = pad S256x128 ![0, 0] ![0, 126] ![0, 0] (Cert.ReferenceIdeal.ReadP.val_main_v54 (F := Ideal) (m ((c : Thread nD τ).loc main_arg7))) padValue
      pads_S256x2_S256x128_000_01260 h_S_ := by
  show StableHlo.after hostOps1_5 (StableHlo.after hostOps1_4 (StableHlo.after hostOps1_3 (StableHlo.after hostOps1_2
    (StableHlo.after hostOps1_1 (StableHlo.after hostOps1 (W2 m ρ c)))))) (Proc.devRef .tc main_v42) = _
  after_results_simp
  rw [kept_w2r]
  simp only [ofBuf_toBuf]
  rfl

set_option maxHeartbeats 4000000 in
theorem entry1_b (c : Dev nD) :
    V8 m ρ c main_v43 = pad S128 ![0] ![126] ![0] (m ((c : Thread nD τ).loc main_arg6)) padValue pads_S2_S128_01260 h_S_ := by
  show StableHlo.after hostOps1_5 (StableHlo.after hostOps1_4 (StableHlo.after hostOps1_3 (StableHlo.after hostOps1_2
    (StableHlo.after hostOps1_1 (StableHlo.after hostOps1 (W2 m ρ c)))))) (Proc.devRef .tc main_v43) = _
  after_results_simp
  rw [kept_b2]
  simp only [ofBuf_toBuf]
  rfl

/-! ## Lanes 0 and 1 of the padded weights are the weights -/

/-- Layer 2 reads lanes 0 and 1 only, and there a padded array is the array itself: layer 2 over the padded weights
    is layer 2 over the weights, whatever the padding value. -/
theorem lanes_of_padded (A H : Vec Ideal S50000x256 .f32) (Tl Tr : Vec Ideal S256x2 .f32) (b : Vec Ideal S2 .f32)
    (z : FVec Ideal S_ .f32) :
    scoresPadded A H (pad S256x128 ![0, 0] ![0, 126] ![0, 0] Tl z pads_S256x2_S256x128_000_01260 h_S_)
        (pad S256x128 ![0, 0] ![0, 126] ![0, 0] Tr z pads_S256x2_S256x128_000_01260 h_S_)
        (pad S128 ![0] ![126] ![0] b z pads_S2_S128_01260 h_S_)
      = Cert.Spec.scores A H Tl Tr b := by
  funext i
  have hm : ∀ (T : Vec Ideal S256x2 .f32) (k : Fin 256) (j : Fin 2),
      pad S256x128 ![0, 0] ![0, 126] ![0, 0] T z pads_S256x2_S256x128_000_01260 h_S_ (ix2 k (lane j)) = T (ix2 k j) := fun T k j =>
    pad_apply_of_inside _ _ _ T z pads_S256x2_S256x128_000_01260 h_S_ (ix2 k (lane j)) (ix2 k j) (fun a => match a with
      | ⟨0, _⟩ => by show k.val = 0 + k.val * (0 + 1); omega
      | ⟨1, _⟩ => by show j.val = 0 + j.val * (0 + 1); omega)
  have hv : ∀ j : Fin 2, pad S128 ![0] ![126] ![0] b z pads_S2_S128_01260 h_S_ (ix1 (lane j)) = b (ix1 j) := fun j =>
    pad_apply_of_inside _ _ _ b z pads_S2_S128_01260 h_S_ (ix1 (lane j)) (ix1 j) (fun a => match a with
      | ⟨0, _⟩ => by show j.val = 0 + j.val * (0 + 1); omega)
  unfold scoresPadded Cert.Spec.scores Cert.Spec.logit
  simp only [hm, hv]
  rfl

/-! ## The result -/

/-- The result buffer's final contents are the reference's result stage of the launch arguments. -/
theorem result_eq (c : Dev nD) :
    W9 m ρ c (Proc.devRef .tc main_v44)
      = Cert.ReferenceIdeal.ReadP.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W9_arr m ρ c 5).trans ?_
  rw [scores_array (V8 m ρ) c, entry1_agg, entry1_h, entry1_wl, entry1_wr, entry1_b, hidden_eq, lanes_of_padded,
    Cert.ReferenceIdeal.Mean.agg2_eq]
  exact (Cert.ReferenceIdeal.RefValue.scores_ref _ _ _ _ _ _ _ _).symm

end Cert.KernelIdeal.KernelValue

end
-- ==== Proof.lean ====
/-
  The certificate: a two-layer mean-aggregation graph network in two Pallas kernels against its jnp reference.

  Both programs take node features x [50000, 256], an edge list [2, 800000] and the weights of two layers. Each layer
  aggregates a node's incoming rows (gather the sources' rows, scatter-add them into the destinations, take the mean
  over max(count, 1)), then forms agg·Wlᵀ + b + h·Wrᵀ. Layer 1 rectifies; layer 2 has two outputs and returns their
  log-softmax. The kernel program keeps the gathers and scatter-adds on the host and runs each layer's dense part as
  one pallas_call over 25 blocks of 2000 rows; it takes the mean as a product with a reciprocal computed once, narrows
  the matmul operands to bf16 (the identity on the extended reals), and pads the second layer's two columns to 128
  lanes of which it keeps lanes 0 and 1.

  The frames of the two kernel programs are the generated ones. The reference is host operations only; its run
  (RefRun) gives its frame and names its result, which RefRead and RefValue read as Spec.scores over Spec.hidden of
  the reference's own aggregate stages. The idealized kernel's run with its result named is KernelRun; KernelValue
  shows that result to be the reference's result stage of the same arguments: the blocks of each region tile its
  output (Layer1Array, Layer2Array over the bodies Layer1Body, Layer2Body), a sum scaled by 1 / max(count, 1) is the
  sum divided by max(count, 1) on every extended real (MeanAggregate), and lanes 0 and 1 of a zero-padded array are the
  array's. The ideal pass rewrote nothing in the kernel, so `preserves` has no conjunct. No step uses that the
  inputs are finite: only commutative-monoid facts of + and ·, and c⁻¹ for c ≥ 1.
-/
import proofs.«180262_j20581483282517_1_alg».proof.Defs
import proofs.«180262_j20581483282517_1_alg».proof.Proof.Gen.Kernel
import proofs.«180262_j20581483282517_1_alg».proof.Proof.Gen.Kernel.Skeleton
import proofs.«180262_j20581483282517_1_alg».proof.Proof.Gen.Kernel.Launch
import proofs.«180262_j20581483282517_1_alg».proof.Proof.Gen.Kernel.Points
import proofs.«180262_j20581483282517_1_alg».proof.Proof.Gen.Kernel.Frame
import proofs.«180262_j20581483282517_1_alg».proof.Proof.Gen.KernelIdeal
import proofs.«180262_j20581483282517_1_alg».proof.Proof.Gen.KernelIdeal.Skeleton
import proofs.«180262_j20581483282517_1_alg».proof.Proof.Gen.KernelIdeal.Launch
import proofs.«180262_j20581483282517_1_alg».proof.Proof.Gen.KernelIdeal.Points
import proofs.«180262_j20581483282517_1_alg».proof.Proof.Gen.KernelIdeal.Frame
import proofs.«180262_j20581483282517_1_alg».proof.Proof.Gen.ReferenceIdeal
import proofs.«180262_j20581483282517_1_alg».proof.Proof.Gen.Pre_finite_inputs
import proofs.«180262_j20581483282517_1_alg».proof.Proof.RefRun
import proofs.«180262_j20581483282517_1_alg».proof.Proof.RefRead
import proofs.«180262_j20581483282517_1_alg».proof.Proof.KernelRun
import proofs.«180262_j20581483282517_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments as launched: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments as launched: its run, with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both idealized programs run, and both results are the reference's result
    stage of the kernel's arguments: the reference's by its run, the kernel's by `KernelValue.result_eq`. -/
theorem algebraic : Cert.algebraic_KernelIdeal_ReferenceIdeal := by
  intro m ρ m' ρ' _ hagree
  refine ⟨fun c => Cert.KernelIdeal.Gen.W9 m ρ c (Proc.devRef .tc Cert.KernelIdeal.main_v44),
    Cert.KernelIdeal.RunValue.run_result m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7⟩ := hagree c
  rw [Cert.ReferenceIdeal.ReadP.val_main_v57_eq, a0, a1, a2, a3, a4, a5, a6, a7]
  exact (Cert.KernelIdeal.KernelValue.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
